-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x500 : Shape := ⟨2, ![256, 500]⟩
abbrev S500x256x256 : Shape := ⟨3, ![500, 256, 256]⟩
abbrev S_ : Shape := ⟨0, ![]⟩

class Facts : Prop where
  bcast_S_S256x500 : S_.BroadcastsInDim S256x500 (![] : Fin 0 → Fin S256x500.rank)
  reducesTo_S256x500_S_d0_1 : S256x500.ReducesTo [0, 1] S_
  h_S_ : 0 < S_.numel
  bcast_S_S500x256x256 : S_.BroadcastsInDim S500x256x256 (![] : Fin 0 → Fin S500x256x256.rank)
  reducesTo_S500x256x256_S_d0_1_2 : S500x256x256.ReducesTo [0, 1, 2] S_

variable [Facts]

def fn {F : FTy → Type} [FloatOps F] (main_arg0 : FVec F S256x500 .f32) (main_arg1 : FVec F S500x256x256 .f32) (main_arg2 : IVec S256x500 32) : IVec S_ 1 :=
  let main_v0 : FVec F S256x500 .f32 := Host.absf main_arg0
  let main_cst : FVec F S_ .f32 := constant S_ .f32 0x7F800000#32
  let main_v1 : FVec F S256x500 .f32 := broadcastInDim S256x500 ![] bcast_S_S256x500 main_cst
  let main_v2 : IVec S256x500 1 := cmpf .olt main_v0 main_v1
  let main_c : IVec S_ 1 := constantI S_ 1 1#1
  let main_v3 : IVec S_ 1 := (fun x v => Host.reduce IntOp.andi x v reducesTo_S256x500_S_d0_1 h_S_) main_v2 main_c
  let main_v4 : FVec F S500x256x256 .f32 := Host.absf main_arg1
  let main_cst_0 : FVec F S_ .f32 := constant S_ .f32 0x7F800000#32
  let main_v5 : FVec F S500x256x256 .f32 := broadcastInDim S500x256x256 ![] bcast_S_S500x256x256 main_cst_0
  let main_v6 : IVec S500x256x256 1 := cmpf .olt main_v4 main_v5
  let main_c_1 : IVec S_ 1 := constantI S_ 1 1#1
  let main_v7 : IVec S_ 1 := (fun x v => Host.reduce IntOp.andi x v reducesTo_S500x256x256_S_d0_1_2 h_S_) main_v6 main_c_1
  let main_v8 : IVec S_ 1 := andi main_v3 main_v7
  main_v8
-- ==== Kernel.lean ====
abbrev S256x500 : Shape := ⟨2, ![256, 500]⟩
abbrev S500x256x256 : Shape := ⟨3, ![500, 256, 256]⟩
abbrev S500x256 : Shape := ⟨2, ![500, 256]⟩
abbrev S1x256 : Shape := ⟨2, ![1, 256]⟩
abbrev S128x128 : Shape := ⟨2, ![128, 128]⟩
abbrev S128x128x256 : Shape := ⟨3, ![128, 128, 256]⟩
abbrev S1x128 : Shape := ⟨2, ![1, 128]⟩
abbrev S128 : Shape := ⟨1, ![128]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S256x500, .f32⟩
  | .hbm, ⟨1, _⟩ => ⟨S500x256x256, .f32⟩
  | .hbm, ⟨2, _⟩ => ⟨S256x500, .i32⟩
  | .hbm, ⟨3, _⟩ => ⟨S500x256, .f32⟩
  | .hbm, ⟨4, _⟩ => ⟨S500x256, .i32⟩
  | .hbm, ⟨5, _⟩ => ⟨S1x256, .f32⟩
  | .hbm, ⟨6, _⟩ => ⟨S256, .f32⟩
  | .local _ .vmem, ⟨0, _⟩ => ⟨S128x128, .f32⟩
  | .local _ .vmem, ⟨1, _⟩ => ⟨S128x128, .f32⟩
  | .local _ .vmem, ⟨2, _⟩ => ⟨S128x128, .i32⟩
  | .local _ .vmem, ⟨3, _⟩ => ⟨S128x128, .i32⟩
  | .local _ .vmem, ⟨4, _⟩ => ⟨S128x128x256, .f32⟩
  | .local _ .vmem, ⟨5, _⟩ => ⟨S128x128x256, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | _, _ => ⟨S256x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v84 : BitVec 1 := Scalar.cmpi .eq arg1 c3_i32
  let v85 : BitVec 32 := Scalar.extui v84
  let c0_i32_30 : BitVec 32 := 0#32
  let v86 : BitVec 1 := Scalar.cmpi .ne v85 c0_i32_30
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x500_S500x256_1_0 : S256x500.Transposes [1, 0] S500x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S128x128_d0_w32 : S128x128.Iotas .tc 32 [0]
  inb_S128x128x256_S128x128x256_0_0_0 : ∀ a, (![0, 0, 0] : Fin 3 → Nat) a + S128x128x256.size a ≤ S128x128x256.size a
  h_S128x128x256 : 0 < S128x128x256.numel
  reduces_S128x128x256_S128x128 : S128x128x256.Reduces [2] S128x128
  reduces_S128x128_S128 : S128x128.Reduces [0] S128
  shapeCasts_S128_S1x128 : S128.ShapeCasts S1x128
  shapeCasts_S1x256_S256 : S1x256.ShapeCasts S256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x128.size a < S500x256.size a
  hwx0_0 : ∀ i : grid0.Coords, EltTy.bits .f32 = 32 ∨ (Rect.unit (s := S500x256) (fun a => cc0_transform_0 i a * S128x128.size a) (fun a => (Pipeline.Clip.of (cc0_transform_0 i a) (S128x128.size a) (S500x256.size a)).extent (S128x128.size a)) fun a => Pipeline.Clip.inb (Pipeline.Clip.ok_of (hstart0_0 i a))).WholeWords (EltTy.packing .f32)
  hwxs0_0 : ∀ i : grid0.Coords, EltTy.bits .f32 = 32 ∨ (Rect.unit (s := S128x128) (fun _ => 0) (fun a => (Pipeline.Clip.of (cc0_transform_0 i a) (S128x128.size a) (S500x256.size a)).extent (S128x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x128.size a < S500x256.size a
  hwx0_1 : ∀ i : grid0.Coords, EltTy.bits .i32 = 32 ∨ (Rect.unit (s := S500x256) (fun a => cc0_transform_1 i a * S128x128.size a) (fun a => (Pipeline.Clip.of (cc0_transform_1 i a) (S128x128.size a) (S500x256.size a)).extent (S128x128.size a)) fun a => Pipeline.Clip.inb (Pipeline.Clip.ok_of (hstart0_1 i a))).WholeWords (EltTy.packing .i32)
  hwxs0_1 : ∀ i : grid0.Coords, EltTy.bits .i32 = 32 ∨ (Rect.unit (s := S128x128) (fun _ => 0) (fun a => (Pipeline.Clip.of (cc0_transform_1 i a) (S128x128.size a) (S500x256.size a)).extent (S128x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S128x128x256.size a < S500x256x256.size a
  hwx0_2 : ∀ i : grid0.Coords, EltTy.bits .f32 = 32 ∨ (Rect.unit (s := S500x256x256) (fun a => cc0_transform_2 i a * S128x128x256.size a) (fun a => (Pipeline.Clip.of (cc0_transform_2 i a) (S128x128x256.size a) (S500x256x256.size a)).extent (S128x128x256.size a)) fun a => Pipeline.Clip.inb (Pipeline.Clip.ok_of (hstart0_2 i a))).WholeWords (EltTy.packing .f32)
  hwxs0_2 : ∀ i : grid0.Coords, EltTy.bits .f32 = 32 ∨ (Rect.unit (s := S128x128x256) (fun _ => 0) (fun a => (Pipeline.Clip.of (cc0_transform_2 i a) (S128x128x256.size a) (S500x256x256.size a)).extent (S128x128x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)

variable [Facts₀]

abbrev win0_0 : Pipeline.Window sig grid0 :=
  Pipeline.Window.ofSpecClip (Memref.whole main_v0) S128x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S128x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S128x128x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x500 : Shape := ⟨2, ![256, 500]⟩
abbrev S500x256x256 : Shape := ⟨3, ![500, 256, 256]⟩
abbrev S_ : Shape := ⟨0, ![]⟩
abbrev S256 : Shape := ⟨1, ![256]⟩
abbrev S256x500x256 : Shape := ⟨3, ![256, 500, 256]⟩

abbrev nBuf : Space → Nat
  | .hbm => 76
  | .vmem => 0
  | .smem => 0
  | _ => 0

abbrev bufTy : (tb : Table) → Fin (tcTables nBuf tb) → BufTy
  | .hbm, ⟨0, _⟩ => ⟨S256x500, .f32⟩
  | .hbm, ⟨1, _⟩ => ⟨S500x256x256, .f32⟩
  | .hbm, ⟨2, _⟩ => ⟨S256x500, .i32⟩
  | .hbm, ⟨3, _⟩ => ⟨S256x500, .f32⟩
  | .hbm, ⟨4, _⟩ => ⟨S256x500, .f32⟩
  | .hbm, ⟨5, _⟩ => ⟨S_, .f32⟩
  | .hbm, ⟨6, _⟩ => ⟨S256x500, .f32⟩
  | .hbm, ⟨7, _⟩ => ⟨S256x500, .f32⟩
  | .hbm, ⟨8, _⟩ => ⟨S256x500, .f32⟩
  | .hbm, ⟨9, _⟩ => ⟨S256x500, .f32⟩
  | .hbm, ⟨10, _⟩ => ⟨S256x500, .i1⟩
  | .hbm, ⟨11, _⟩ => ⟨S256x500, .f32⟩
  | .hbm, ⟨12, _⟩ => ⟨S256x500, .f32⟩
  | .hbm, ⟨13, _⟩ => ⟨S256x500, .f32⟩
  | .hbm, ⟨14, _⟩ => ⟨S256x500, .f32⟩
  | .hbm, ⟨15, _⟩ => ⟨S256x500, .f32⟩
  | .hbm, ⟨16, _⟩ => ⟨S256x500, .f32⟩
  | .hbm, ⟨17, _⟩ => ⟨S256x500, .f32⟩
  | .hbm, ⟨18, _⟩ => ⟨S256x500, .f32⟩
  | .hbm, ⟨19, _⟩ => ⟨S256x500, .f32⟩
  | .hbm, ⟨20, _⟩ => ⟨S256x500, .f32⟩
  | .hbm, ⟨21, _⟩ => ⟨S_, .f32⟩
  | .hbm, ⟨22, _⟩ => ⟨S256x500, .f32⟩
  | .hbm, ⟨23, _⟩ => ⟨S256x500, .f32⟩
  | .hbm, ⟨24, _⟩ => ⟨S256x500, .f32⟩
  | .hbm, ⟨25, _⟩ => ⟨S256x500, .f32⟩
  | .hbm, ⟨26, _⟩ => ⟨S_, .f32⟩
  | .hbm, ⟨27, _⟩ => ⟨S256x500, .f32⟩
  | .hbm, ⟨28, _⟩ => ⟨S256x500, .f32⟩
  | .hbm, ⟨29, _⟩ => ⟨S256x500, .f32⟩
  | .hbm, ⟨30, _⟩ => ⟨S256x500, .f32⟩
  | .hbm, ⟨31, _⟩ => ⟨S256x500, .i1⟩
  | .hbm, ⟨32, _⟩ => ⟨S256x500, .f32⟩
  | .hbm, ⟨33, _⟩ => ⟨S256x500, .f32⟩
  | .hbm, ⟨34, _⟩ => ⟨S256x500, .f32⟩
  | .hbm, ⟨35, _⟩ => ⟨S256x500, .f32⟩
  | .hbm, ⟨36, _⟩ => ⟨S256x500, .f32⟩
  | .hbm, ⟨37, _⟩ => ⟨S256x500, .f32⟩
  | .hbm, ⟨38, _⟩ => ⟨S256x500, .f32⟩
  | .hbm, ⟨39, _⟩ => ⟨S256x500, .f32⟩
  | .hbm, ⟨40, _⟩ => ⟨S256x500, .f32⟩
  | .hbm, ⟨41, _⟩ => ⟨S256x500, .f32⟩
  | .hbm, ⟨42, _⟩ => ⟨S256x500, .f32⟩
  | .hbm, ⟨43, _⟩ => ⟨S256x500, .f32⟩
  | .hbm, ⟨44, _⟩ => ⟨S_, .f32⟩
  | .hbm, ⟨45, _⟩ => ⟨S256, .f32⟩
  | .hbm, ⟨46, _⟩ => ⟨S256x500x256, .f32⟩
  | .hbm, ⟨47, _⟩ => ⟨S_, .f32⟩
  | .hbm, ⟨48, _⟩ => ⟨S256x500, .f32⟩
  | .hbm, ⟨49, _⟩ => ⟨S256x500, .f32⟩
  | .hbm, ⟨50, _⟩ => ⟨S256x500, .f32⟩
  | .hbm, ⟨51, _⟩ => ⟨S_, .f32⟩
  | .hbm, ⟨52, _⟩ => ⟨S256x500, .f32⟩
  | .hbm, ⟨53, _⟩ => ⟨S256x500, .f32⟩
  | .hbm, ⟨54, _⟩ => ⟨S_, .f32⟩
  | .hbm, ⟨55, _⟩ => ⟨S256x500, .f32⟩
  | .hbm, ⟨56, _⟩ => ⟨S256x500, .f32⟩
  | .hbm, ⟨57, _⟩ => ⟨S_, .f32⟩
  | .hbm, ⟨58, _⟩ => ⟨S256x500, .f32⟩
  | .hbm, ⟨59, _⟩ => ⟨S256x500, .f32⟩
  | .hbm, ⟨60, _⟩ => ⟨S_, .f32⟩
  | .hbm, ⟨61, _⟩ => ⟨S256x500, .f32⟩
  | .hbm, ⟨62, _⟩ => ⟨S256x500, .f32⟩
  | .hbm, ⟨63, _⟩ => ⟨S_, .i32⟩
  | .hbm, ⟨64, _⟩ => ⟨S256x500, .i32⟩
  | .hbm, ⟨65, _⟩ => ⟨S256x500, .i1⟩
  | .hbm, ⟨66, _⟩ => ⟨S_, .f32⟩
  | .hbm, ⟨67, _⟩ => ⟨S_, .f32⟩
  | .hbm, ⟨68, _⟩ => ⟨S256x500, .f32⟩
  | .hbm, ⟨69, _⟩ => ⟨S256x500, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | _, _ => ⟨S256x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call1_v0 : Ref sig .tc := ⟨.hbm, 25, rfl⟩
abbrev main_call1_call0_cst : Ref sig .tc := ⟨.hbm, 26, rfl⟩
abbrev main_call1_call0_v0 : Ref sig .tc := ⟨.hbm, 27, rfl⟩
abbrev main_call1_call0_v1 : Ref sig .tc := ⟨.hbm, 28, rfl⟩
abbrev main_call1_call0_v2 : Ref sig .tc := ⟨.hbm, 29, rfl⟩
abbrev main_call1_call0_v3 : Ref sig .tc := ⟨.hbm, 30, rfl⟩
abbrev main_call1_call0_v4 : Ref sig .tc := ⟨.hbm, 31, rfl⟩
abbrev main_call1_call0_v5 : Ref sig .tc := ⟨.hbm, 32, rfl⟩
abbrev main_call1_call0_v6 : Ref sig .tc := ⟨.hbm, 33, rfl⟩
abbrev main_call1_call0_v7 : Ref sig .tc := ⟨.hbm, 34, rfl⟩
abbrev main_call1_call0_v8 : Ref sig .tc := ⟨.hbm, 35, rfl⟩
abbrev main_call1_call0_v9 : Ref sig .tc := ⟨.hbm, 36, rfl⟩
abbrev main_call1_call0_v10 : Ref sig .tc := ⟨.hbm, 37, rfl⟩
abbrev main_call1_call0_v11 : Ref sig .tc := ⟨.hbm, 38, rfl⟩
abbrev main_call1_v1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_0 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_cst_3 : Ref sig .tc := ⟨.hbm, 54, rfl⟩
abbrev main_v17 : Ref sig .tc := ⟨.hbm, 55, rfl⟩
abbrev main_v18 : Ref sig .tc := ⟨.hbm, 56, rfl⟩
abbrev main_cst_4 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_c : Ref sig .tc := ⟨.hbm, 63, rfl⟩
abbrev main_v23 : Ref sig .tc := ⟨.hbm, 64, rfl⟩
abbrev main_v24 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_v25 : Ref sig .tc := ⟨.hbm, 69, rfl⟩
abbrev main_cst_7 : Ref sig .tc := ⟨.hbm, 70, rfl⟩
abbrev main_v26 : Ref sig .tc := ⟨.hbm, 71, rfl⟩
abbrev main_cst_8 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩

abbrev nD : Nat := 1
abbrev τ : Topo := Topo.v7x

variable {F : FTy → Type} [FloatOps F]

class Facts₀ : Prop where
  bcast_S_S256x500 : S_.BroadcastsInDim S256x500 (![] : Fin 0 → Fin S256x500.rank)
  reducesTo_S256x500_S256_d1 : S256x500.ReducesTo [1] S256
  h_S_ : 0 < S_.numel
  transposes_S500x256x256_S256x500x256_1_0_2 : S500x256x256.Transposes [1, 0, 2] S256x500x256
  reducesTo_S256x500x256_S256x500_d2 : S256x500x256.ReducesTo [2] S256x500
  bcast_S_S256 : S_.BroadcastsInDim S256 (![] : Fin 0 → Fin S256.rank)

variable [Facts₀]

class Facts : Prop extends Facts₀ where

variable [Facts]
-- ==== Proof.BRuns.lean ====
/-
  The kernel body run on whole staging buffers, once per way its two branches go.

  A grid point is (sample tile, class tile). At the first class tile the scratch accumulator is reset to zero; at
  every class tile the block's masked column sums are added to it; at the last class tile it is copied to the
  output's buffer. Three cases meet the grid: first tile (reset, no copy), middle tiles (neither), last tile (copy).
  Each case's run yields the stores it leaves in the scratch (and, at the last tile, in the output's buffer).
-/
import proofs.«107965_j30399778521687_2_alg».proof.Proof.Gen.Kernel.Frame
import proofs.«107965_j30399778521687_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- The first class tile of a sample tile: the accumulator is reset there. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 4 = 0 :=
  (by decide +kernel : ∀ t : Fin grid0.N, condReset (grid0.coords t) ↔ t.val % 4 = 0)

/-- The last class tile of a sample tile: the accumulator is stored to the output block there. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-- The input windows are never idle; the output window is idle, and not written back, away from the last class tile. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
theorem live_3 : ∀ t : Fin cfg0.N, condLast (grid0.coords t) → cfg0.idle 3 (grid0.coords t) = false := by decide +kernel

/-- The windows' current staging memrefs at a point, the scratch, and the views their contents are stated through. -/
abbrev ms0 (t : Fin cfg0.N) : Memref sig .tc .vmem S128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev scM : Memref sig .tc .vmem S1x128 .f32 := Memref.whole cc0_scratch0
abbrev VS : View sig .tc .vmem S1x128 .f32 := scM.view
abbrev VO : View sig .tc .vmem S1x128 .f32 := (Memref.whole cc0_stg3_0 : Memref sig .tc .vmem S1x128 .f32).view

/-- The region's invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

set_option maxHeartbeats 1000000 in
/-- The body on whole memrefs, the two branches decided as the hypotheses say: what its stores leave in the scratch, as pieces. -/
noncomputable def kernelRun_A (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : condReset i) (hc1 : ¬condLast i)
    (x0 : Vec F S128x128 .f32) (x1 : Vec F S128x128 .i32) (x2 : Vec F S128x128x256 .f32) (xs0 : Vec F S1x128 .f32) :
    { LS0 : List (View.Piece (Elt F) S1x128 .f32) //
      ∀ (xi3 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body on whole memrefs, the two branches decided as the hypotheses say: what its stores leave in the scratch, as pieces. -/
noncomputable def kernelRun_B (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : ¬condLast i)
    (x0 : Vec F S128x128 .f32) (x1 : Vec F S128x128 .i32) (x2 : Vec F S128x128x256 .f32) (xs0 : Vec F S1x128 .f32) :
    { LS0 : List (View.Piece (Elt F) S1x128 .f32) //
      ∀ (xi3 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body on whole memrefs at a last class tile: what its stores leave in the output's buffer and in the scratch, as pieces. -/
noncomputable def kernelRun_C (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i)
    (x0 : Vec F S128x128 .f32) (x1 : Vec F S128x128 .i32) (x2 : Vec F S128x128x256 .f32) (xs0 : Vec F S1x128 .f32) :
    Σ' (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun xi3 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

/-- Each case's stores into the scratch cover it, and the last tile's store into the output's buffer covers it. -/
theorem scover_A (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : condReset i) (hc1 : ¬condLast i)
    (x0 : Vec F S128x128 .f32) (x1 : Vec F S128x128 .i32) (x2 : Vec F S128x128x256 .f32) (xs0 : Vec F S1x128 .f32) (y : S1x128.Idx) :
    ∃ pc ∈ (kernelRun_A c i arg2 harg2 arg3 harg3 arg4 harg4 arg5 harg5 arg6 harg6 hc0 hc1 x0 x1 x2 xs0).1, y ∈ pc.1.set :=
  View.cover_of_tiledL (kernelRun_A c i arg2 harg2 arg3 harg3 arg4 harg4 arg5 harg5 arg6 harg6 hc0 hc1 x0 x1 x2 xs0).1 S1x128.size (by sl_kernel_rfl) y
theorem scover_B (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : ¬condLast i)
    (x0 : Vec F S128x128 .f32) (x1 : Vec F S128x128 .i32) (x2 : Vec F S128x128x256 .f32) (xs0 : Vec F S1x128 .f32) (y : S1x128.Idx) :
    ∃ pc ∈ (kernelRun_B c i arg2 harg2 arg3 harg3 arg4 harg4 arg5 harg5 arg6 harg6 hc0 hc1 x0 x1 x2 xs0).1, y ∈ pc.1.set :=
  View.cover_of_tiledL (kernelRun_B c i arg2 harg2 arg3 harg3 arg4 harg4 arg5 harg5 arg6 harg6 hc0 hc1 x0 x1 x2 xs0).1 S1x128.size (by sl_kernel_rfl) y
theorem scover_C (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i)
    (x0 : Vec F S128x128 .f32) (x1 : Vec F S128x128 .i32) (x2 : Vec F S128x128x256 .f32) (xs0 : Vec F S1x128 .f32) (y : S1x128.Idx) :
    ∃ pc ∈ (kernelRun_C c i arg2 harg2 arg3 harg3 arg4 harg4 arg5 harg5 arg6 harg6 hc0 hc1 x0 x1 x2 xs0).2.1, y ∈ pc.1.set :=
  View.cover_of_tiledL (kernelRun_C c i arg2 harg2 arg3 harg3 arg4 harg4 arg5 harg5 arg6 harg6 hc0 hc1 x0 x1 x2 xs0).2.1 S1x128.size (by sl_kernel_rfl) y
theorem cover_C (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i)
    (x0 : Vec F S128x128 .f32) (x1 : Vec F S128x128 .i32) (x2 : Vec F S128x128x256 .f32) (xs0 : Vec F S1x128 .f32) (y : S1x128.Idx) :
    ∃ pc ∈ (kernelRun_C c i arg2 harg2 arg3 harg3 arg4 harg4 arg5 harg5 arg6 harg6 hc0 hc1 x0 x1 x2 xs0).1, y ∈ pc.1.set :=
  View.cover_of_tiledL (kernelRun_C c i arg2 harg2 arg3 harg3 arg4 harg4 arg5 harg5 arg6 harg6 hc0 hc1 x0 x1 x2 xs0).1 S1x128.size (by sl_kernel_rfl) y

end Cert.Kernel.Body

end
-- ==== Proof.KStepBits.lean ====
/-
  The word-level program's stored value at a grid point, as a pure function of the three loaded blocks and the
  accumulator, and the fact that it does not depend on the rows the class mask drops. The same text as for the
  ideal program: everything here holds at every float instance.
-/
import proofs.«107965_j30399778521687_2_alg».proof.Proof.Gen.Kernel.Skeleton
import Idealize.ShloMosaic.Lib.ValueIdx
import Idealize.ShloMosaic.PureOps.Reduce
import Idealize.ShloMosaic.Lib.Pipeline.Value

noncomputable section

open scoped BigOperators

namespace Cert.Kernel.KStep

open Idealize.ShloMosaic Idealize.ShloMosaic.ValueIdx Cert.Kernel Cert.Kernel.Gen

variable {F : FTy → Type} [FloatOps F]

/-- what the body stores into the scratch at point i -/
def step (i : grid0.Coords) (x : Vec F S128x128 .f32) (l : Vec F S128x128 .i32) (w : Vec F S128x128x256 .f32) (acc : Vec F S1x128 .f32) : Vec F S1x128 .f32 :=
  k0_pay1 (k0_pay11 (k0_pay4 l) (k0_pay6 i) (k0_pay7 x l) (k0_pay8 l) (k0_pay9 x) (Scalar.ofBits .f32 0x00000000#32) (k0_pay10 x) w acc)

/-- The mask bit of row (j 0) of class block (i 1) is set exactly when the class index (i 1) * 128 + (j 0) is below 500:
    the 32-bit product and sum do not wrap ((i 1) < 4, (j 0) < 128), and the signed comparison of two small
    non-negative words is the comparison of the naturals. -/
theorem mask_eq_one_iff (i : grid0.Coords) (j : S128x128.Idx) :
    k0_pay6 i j = 1#1 ↔ (i 1).val * 128 + (j 0).val < 500 := by
  have hi : (i 1).val < 4 := (i 1).isLt
  have hj : (j 0).val < 128 := (j 0).isLt
  show IntOp.cmpi .slt (IntOp.addi (Scalar.muli (BitVec.ofNat 32 (i 1).val) 128#32) (iota .tc S128x128 32 [0] iota_S128x128_d0_w32 j)) 500#32 = 1#1 ↔ _
  rw [iota_single_apply]
  generalize (i 1).val = a at *
  generalize (j 0).val = b at *
  simp only [IntOp.cmpi, IntOp.addi, Scalar.muli, IntOp.muli]
  have e : BitVec.ofNat 32 a * 128#32 + BitVec.ofNat 32 b = BitVec.ofNat 32 (a * 128 + b) := by
    simp [BitVec.ofNat_add, BitVec.ofNat_mul]
  rw [e]
  have h2 : (BitVec.ofNat 32 (a * 128 + b)).toInt = ((a * 128 + b : Nat) : Int) := by
    have h3 : (BitVec.ofNat 32 (a * 128 + b)).toNat = a * 128 + b := by
      rw [BitVec.toNat_ofNat]; omega
    unfold BitVec.toInt
    rw [h3]
    split <;> omega
  have h4 : (500#32 : BitVec 32).toInt = 500 := by decide
  simp only [BitVec.slt, h2, h4]
  by_cases h : a * 128 + b < 500
  · have h' : (a : Int) * 128 + b < 500 := by omega
    simp [h, h']
  · have h' : ¬ (a : Int) * 128 + b < 500 := by omega
    simp [h, h']

/-- Two pairs of blocks that agree on the rows the mask keeps give the same masked sum a + o * b: on a kept row the
    selects read the agreeing elements, on a dropped row they read the fill values. -/
theorem masked_congr {s : Shape} {φ : FTy} (m : IVec s 1) (a a' b b' z z' o : FVec F s φ)
    (h : ∀ j, m j = 1#1 → a j = a' j ∧ b j = b' j) :
    addf (select m a z) (mulf o (select m b z')) = addf (select m a' z) (mulf o (select m b' z')) := by
  funext j
  show FloatOps.addf (Scalar.select (m j) (a j) (z j)) (FloatOps.mulf (o j) (Scalar.select (m j) (b j) (z' j)))
    = FloatOps.addf (Scalar.select (m j) (a' j) (z j)) (FloatOps.mulf (o j) (Scalar.select (m j) (b' j) (z' j)))
  by_cases hm : m j = 1#1
  · obtain ⟨ha, hb⟩ := h j hm
    rw [ha, hb]
  · rw [eq_zero_of_ne_one hm, select_zero, select_zero, select_zero, select_zero]

/-- The maximum along the last axis, read at (r, q), is a left fold over the source indices that drop to (r, q); each of
    them has first coordinate r, so two blocks that agree on row r have the same maximum there. -/
theorem rowmax_congr (w w' : FVec F S128x128x256 .f32) (j : S128x128.Idx)
    (h : ∀ k : S128x128x256.Idx, (k 0).val = (j 0).val → w k = w' k) :
    multiReduction .maximumf [2] S128x128 w 0xFF800000#32 reduces_S128x128x256_S128x128 (.inl rfl) rfl j
      = multiReduction .maximumf [2] S128x128 w' 0xFF800000#32 reduces_S128x128x256_S128x128 (.inl rfl) rfl j := by
  show reduceFold reduces_S128x128x256_S128x128 FloatOps.maximumf (FloatOps.ofBits .f32 0xFF800000#32) w j
    = reduceFold reduces_S128x128x256_S128x128 FloatOps.maximumf (FloatOps.ofBits .f32 0xFF800000#32) w' j
  rw [reduceFold_eq_foldl, reduceFold_eq_foldl]
  refine List.foldl_ext _ _ _ (fun r k hk => ?_)
  have hd : reduces_S128x128x256_S128x128.drop k = j := by
    simpa using (List.mem_filter.1 hk).2
  have h0 : (k 0).val = (j 0).val := by
    rw [← hd]; exact (reduces_S128x128x256_S128x128.drop_apply_val_of_eq k 0 0).symm
  rw [h k h0]

/-- (B1) rows of the blocks whose class index (i 1)*128 + row is 500 or more do not matter: the body masks them before
    it sums. The stored value depends on the three blocks only through the masked sum a + 1 * b of the loss part a and
    the margin part b; on a kept row both are pointwise in the logits and labels and read the third block only through
    that row's maxima. -/
theorem step_congr (i : grid0.Coords) (x x' : Vec F S128x128 .f32) (l l' : Vec F S128x128 .i32) (w w' : Vec F S128x128x256 .f32) (acc : Vec F S1x128 .f32)
    (hx : ∀ j : S128x128.Idx, (i 1).val * 128 + (j 0).val < 500 → x j = x' j)
    (hl : ∀ j : S128x128.Idx, (i 1).val * 128 + (j 0).val < 500 → l j = l' j)
    (hw : ∀ j : S128x128x256.Idx, (i 1).val * 128 + (j 0).val < 500 → w j = w' j) :
    step i x l w acc = step i x' l' w' acc := by
  unfold step
  refine congrArg k0_pay1 ?_
  unfold k0_pay11
  refine congrArg (fun v => addf acc (shapeCast S1x128 (multiReduction .add [0] S128 v 0x00000000#32 reduces_S128x128_S128 (.inl rfl) rfl) shapeCasts_S128_S1x128)) ?_
  refine masked_congr _ _ _ _ _ _ _ _ (fun j hm => ?_)
  have hj := (mask_eq_one_iff i j).1 hm
  have hxj := hx j hj
  have hlj := hl j hj
  have hwj := rowmax_congr w w' j (fun k hk => hw k (by omega))
  refine ⟨?_, ?_⟩
  · simp only [subf, addf, mulf, select, cmpf, absf, exp, log1p, maximumf, broadcast, k0_pay7, k0_pay8, k0_pay9,
      k0_pay10, k0_pay3, k0_pay5, k0_pay4, sitofp, shapeCast_self, hxj, hlj]
  · simp only [select, cmpi, maximumf, subf, logistic, broadcast, k0_pay4, shapeCast_self, hlj, hwj]

end Cert.Kernel.KStep

end
-- ==== Proof.BBody.lean ====
/-
  The frame of the kernel's program: the proof data of its one pipeline, the body obligation, the run.

  What the scratch accumulator holds after each grid point is defined by recursion on the point (accAt): the body's
  step of the point's three input blocks, from zero at the first class tile of a sample tile and from the previous
  point's value elsewhere. The inputs' last class tile overhangs their arrays by twelve rows, so the body is handed
  buffers whose rows past the array hold words nothing names; the step masks those rows before it sums, so it is the
  step of the blocks filled out with zeros (step_fill). The output's buffer is stored only at the last class tile and
  is idle, and not written back, at the others.
-/
import proofs.«107965_j30399778521687_2_alg».proof.Proof.BRuns
import proofs.«107965_j30399778521687_2_alg».proof.Proof.KStepBits
import Idealize.ShloMosaic.Lib.Pipeline.Value
import proofs.«107965_j30399778521687_2_alg».proof.Proof.Gen.Kernel.Frame
import proofs.«107965_j30399778521687_2_alg».proof.Proof.Gen.Kernel.Skeleton
import Idealize.ShloMosaic.Lib.Pipeline.Frame
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen Cert.Kernel.KStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Middle class tiles: the scratch ends at the step of the loaded blocks and its own contents. -/
theorem canon_B (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : ¬condLast i) (x0 : Vec F S128x128 .f32) (x1 : Vec F S128x128 .i32) (x2 : Vec F S128x128x256 .f32) (xs0 : Vec F S1x128 .f32) :
    View.canon (kernelRun_B c i arg2 harg2 arg3 harg3 arg4 harg4 arg5 harg5 arg6 harg6 hc0 hc1 x0 x1 x2 xs0).1 = step i x0 x1 x2 xs0 := by
  unfold kernelRun_B
  dsimp only
  sl_unfold_words
  rw [View.canon_unit_zero hz2]
  unfold step
  simp only [View.readAt_eq_ld, harg2.read_unread, harg3.read_unread, harg4.read_unread, harg6.read_unread, View.ld_unit_zero (S := S128x128) hz2, View.ld_unit_zero (S := S1x128) hz2, View.ld_unit_zero (S := S128x128x256) hz3]

/-- First class tile: the scratch is zeroed, read back, and ends at the step from zero. -/
theorem canon_A (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : condReset i) (hc1 : ¬condLast i) (x0 : Vec F S128x128 .f32) (x1 : Vec F S128x128 .i32) (x2 : Vec F S128x128x256 .f32) (xs0 : Vec F S1x128 .f32) :
    View.canon (kernelRun_A c i arg2 harg2 arg3 harg3 arg4 harg4 arg5 harg5 arg6 harg6 hc0 hc1 x0 x1 x2 xs0).1 = step i x0 x1 x2 (k0_pay2 (F := F)) := by
  unfold kernelRun_A
  dsimp only
  sl_unfold_words
  rw [View.canon_cons_unit_zero (S := S1x128) hz2]
  unfold step
  simp only [View.readCov_unit_zero (S := S1x128) _ hz2]
  simp only [View.readAt_eq_ld, harg2.read_unread, harg3.read_unread, harg4.read_unread, harg6.read_unread, View.ld_unit_zero (S := S128x128) hz2, View.ld_unit_zero (S := S1x128) hz2, View.ld_unit_zero (S := S128x128x256) hz3]

/-- Last class tile: the scratch ends at the step, -/
theorem canon_CS (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i) (x0 : Vec F S128x128 .f32) (x1 : Vec F S128x128 .i32) (x2 : Vec F S128x128x256 .f32) (xs0 : Vec F S1x128 .f32) :
    View.canon (kernelRun_C c i arg2 harg2 arg3 harg3 arg4 harg4 arg5 harg5 arg6 harg6 hc0 hc1 x0 x1 x2 xs0).2.1 = step i x0 x1 x2 xs0 := by
  unfold kernelRun_C
  dsimp only
  sl_unfold_words
  rw [View.canon_unit_zero hz2]
  unfold step
  simp only [View.readAt_eq_ld, harg2.read_unread, harg3.read_unread, harg4.read_unread, harg6.read_unread, View.ld_unit_zero (S := S128x128) hz2, View.ld_unit_zero (S := S1x128) hz2, View.ld_unit_zero (S := S128x128x256) hz3]

/-- and the output's buffer at the same value, read back from the scratch. -/
theorem canon_CO (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i) (x0 : Vec F S128x128 .f32) (x1 : Vec F S128x128 .i32) (x2 : Vec F S128x128x256 .f32) (xs0 : Vec F S1x128 .f32) :
    View.canon (kernelRun_C c i arg2 harg2 arg3 harg3 arg4 harg4 arg5 harg5 arg6 harg6 hc0 hc1 x0 x1 x2 xs0).1 = step i x0 x1 x2 xs0 := by
  unfold kernelRun_C
  dsimp only
  sl_unfold_words
  rw [View.canon_unit_zero hz2]
  unfold step
  simp only [View.readCov_unit_zero (S := S1x128) _ hz2]
  simp only [View.readAt_eq_ld, harg2.read_unread, harg3.read_unread, harg4.read_unread, harg6.read_unread, View.ld_unit_zero (S := S128x128) hz2, View.ld_unit_zero (S := S1x128) hz2, View.ld_unit_zero (S := S128x128x256) hz3]

variable (m : (ℓ : Loc nD τ sig) → Buf (Elt F) ℓ) (ρ : Dev nD → PrngReg)

/-! ## The blocks, the accumulator point by point, the proof data -/

/-- Each input window's block at a point, as the array holds it on the rows inside the array, filled out past the
    array's end (the last class tile overhangs it by twelve rows) with a zero word that nothing reads. -/
def blk0 (c : Dev nD) (t : Fin cfg0.N) : S128x128.Idx → Elt F .f32 :=
  win0_0.fill (grid0.coords t) (fun _ => Scalar.ofBits .f32 0x00000000#32) (iblk m c 0 t)
def blk1 (c : Dev nD) (t : Fin cfg0.N) : S128x128.Idx → Elt F .i32 :=
  win0_1.fill (grid0.coords t) (fun _ => (0#32 : BitVec 32)) (iblk m c 1 t)
def blk2 (c : Dev nD) (t : Fin cfg0.N) : S128x128x256.Idx → Elt F .f32 :=
  win0_2.fill (grid0.coords t) (fun _ => Scalar.ofBits .f32 0x00000000#32) (iblk m c 2 t)

/-- THE ACCUMULATION. What the scratch holds after the body at position n: the step of the point's blocks from zero
    at a first class tile, from what the point before left elsewhere. -/
def accAt (c : Dev nD) : (n : ℕ) → n < cfg0.N → Vec F S1x128 .f32
  | 0, hn => step (grid0.coords ⟨0, hn⟩) (blk0 m c ⟨0, hn⟩) (blk1 m c ⟨0, hn⟩) (blk2 m c ⟨0, hn⟩) (k0_pay2 (F := F))
  | n + 1, hn => step (grid0.coords ⟨n + 1, hn⟩) (blk0 m c ⟨n + 1, hn⟩) (blk1 m c ⟨n + 1, hn⟩) (blk2 m c ⟨n + 1, hn⟩)
      (if (n + 1) % 4 = 0 then (k0_pay2 (F := F)) else accAt c n (Nat.lt_of_succ_lt hn))

theorem accAt_reset (c : Dev nD) (t : Fin cfg0.N) (h0 : t.val % 4 = 0) :
    accAt m c t.val t.isLt = step (grid0.coords t) (blk0 m c t) (blk1 m c t) (blk2 m c t) (k0_pay2 (F := F)) := by
  obtain ⟨n, hn⟩ := t
  cases n with
  | zero => rfl
  | succ n => exact (congrArg (step _ _ _ _) (if_pos h0))

theorem accAt_acc (c : Dev nD) (t : Fin cfg0.N) (h0 : ¬t.val % 4 = 0) :
    accAt m c t.val t.isLt = step (grid0.coords t) (blk0 m c t) (blk1 m c t) (blk2 m c t)
      (accAt m c (t.val - 1) (Nat.lt_of_le_of_lt (Nat.sub_le _ _) t.isLt)) := by
  obtain ⟨n, hn⟩ := t
  cases n with
  | zero => exact absurd (Nat.zero_mod _) h0
  | succ n => exact (congrArg (step _ _ _ _) (if_neg h0))

/-- The region's invariant before position n: before the first point the scratch at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the pipeline on core c: the arrays as the region finds them; after the body each input's
    buffer at its filled block and the output's at the accumulator; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = blk0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = blk2 m c t := by dsimp only [dats]
theorem after_3 (c : Dev nD) (t : Fin cfg0.N) : (dats m 0 c).after 3 t = accAt m c t.val t.isLt := by dsimp only [dats]

/-- What the body finds in each input's buffer: its block just fetched on the rows inside the array, anything past them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq m c 2]

/-! ## The rows a clipped fetch moves -/

/-- How many rows of each input block lie inside the array: all 128, or at the last class tile those up to class 499. -/
theorem xsize_0 : ∀ t : Fin cfg0.N, (500 ≤ (grid0.coords t 1).val * 128 + win0_0.xsize (grid0.coords t) 0 ∨ win0_0.xsize (grid0.coords t) 0 = 128) ∧ win0_0.xsize (grid0.coords t) 1 = 128 :=
  (by decide +kernel : ∀ t : Fin grid0.N, (500 ≤ (grid0.coords t 1).val * 128 + win0_0.xsize (grid0.coords t) 0 ∨ win0_0.xsize (grid0.coords t) 0 = 128) ∧ win0_0.xsize (grid0.coords t) 1 = 128)
theorem xsize_1 : ∀ t : Fin cfg0.N, (500 ≤ (grid0.coords t 1).val * 128 + win0_1.xsize (grid0.coords t) 0 ∨ win0_1.xsize (grid0.coords t) 0 = 128) ∧ win0_1.xsize (grid0.coords t) 1 = 128 :=
  (by decide +kernel : ∀ t : Fin grid0.N, (500 ≤ (grid0.coords t 1).val * 128 + win0_1.xsize (grid0.coords t) 0 ∨ win0_1.xsize (grid0.coords t) 0 = 128) ∧ win0_1.xsize (grid0.coords t) 1 = 128)
theorem xsize_2 : ∀ t : Fin cfg0.N, (500 ≤ (grid0.coords t 1).val * 128 + win0_2.xsize (grid0.coords t) 0 ∨ win0_2.xsize (grid0.coords t) 0 = 128) ∧ win0_2.xsize (grid0.coords t) 1 = 128 ∧ win0_2.xsize (grid0.coords t) 2 = 256 :=
  (by decide +kernel : ∀ t : Fin grid0.N, (500 ≤ (grid0.coords t 1).val * 128 + win0_2.xsize (grid0.coords t) 0 ∨ win0_2.xsize (grid0.coords t) 0 = 128) ∧ win0_2.xsize (grid0.coords t) 1 = 128 ∧ win0_2.xsize (grid0.coords t) 2 = 256)

/-- A row whose class index is below 500 is moved by the fetch, so what fills the buffer past the array does not show there. -/
theorem fill_row_0 {α : Type} (t : Fin cfg0.N) (d d' : S128x128.Idx → α) (g) (j : S128x128.Idx)
    (h : (grid0.coords t 1).val * 128 + (j 0).val < 500) :
    win0_0.fill (grid0.coords t) d g j = win0_0.fill (grid0.coords t) d' g j := by
  have h0 : (j 0).val < 128 := (j 0).isLt
  have h1 : (j 1).val < 128 := (j 1).isLt
  have hm : win0_0.moved (grid0.coords t) j = true := (win0_0.moved_iff _ _).mpr (fun a => by
    obtain ⟨hx0, hx1⟩ := xsize_0 t
    match a with
    | ⟨0, _⟩ => show (j 0).val < win0_0.xsize (grid0.coords t) 0; omega
    | ⟨1, _⟩ => show (j 1).val < win0_0.xsize (grid0.coords t) 1; omega)
  unfold Window.fill; rw [dif_pos hm, dif_pos hm]
theorem fill_row_1 {α : Type} (t : Fin cfg0.N) (d d' : S128x128.Idx → α) (g) (j : S128x128.Idx)
    (h : (grid0.coords t 1).val * 128 + (j 0).val < 500) :
    win0_1.fill (grid0.coords t) d g j = win0_1.fill (grid0.coords t) d' g j := by
  have h0 : (j 0).val < 128 := (j 0).isLt
  have h1 : (j 1).val < 128 := (j 1).isLt
  have hm : win0_1.moved (grid0.coords t) j = true := (win0_1.moved_iff _ _).mpr (fun a => by
    obtain ⟨hx0, hx1⟩ := xsize_1 t
    match a with
    | ⟨0, _⟩ => show (j 0).val < win0_1.xsize (grid0.coords t) 0; omega
    | ⟨1, _⟩ => show (j 1).val < win0_1.xsize (grid0.coords t) 1; omega)
  unfold Window.fill; rw [dif_pos hm, dif_pos hm]
theorem fill_row_2 {α : Type} (t : Fin cfg0.N) (d d' : S128x128x256.Idx → α) (g) (j : S128x128x256.Idx)
    (h : (grid0.coords t 1).val * 128 + (j 0).val < 500) :
    win0_2.fill (grid0.coords t) d g j = win0_2.fill (grid0.coords t) d' g j := by
  have h0 : (j 0).val < 128 := (j 0).isLt
  have h1 : (j 1).val < 128 := (j 1).isLt
  have h2 : (j 2).val < 256 := (j 2).isLt
  have hm : win0_2.moved (grid0.coords t) j = true := (win0_2.moved_iff _ _).mpr (fun a => by
    obtain ⟨hx0, hx1, hx2⟩ := xsize_2 t
    match a with
    | ⟨0, _⟩ => show (j 0).val < win0_2.xsize (grid0.coords t) 0; omega
    | ⟨1, _⟩ => show (j 1).val < win0_2.xsize (grid0.coords t) 1; omega
    | ⟨2, _⟩ => show (j 2).val < win0_2.xsize (grid0.coords t) 2; omega)
  unfold Window.fill; rw [dif_pos hm, dif_pos hm]

/-- So the step of the buffers as the fetches left them is the step of the filled blocks. -/
theorem step_fill (c : Dev nD) (t : Fin cfg0.N) (d0 d1 d2) (acc : Vec F S1x128 .f32) :
    step (grid0.coords t) (win0_0.fill (grid0.coords t) d0 (iblk m c 0 t)) (win0_1.fill (grid0.coords t) d1 (iblk m c 1 t)) (win0_2.fill (grid0.coords t) d2 (iblk m c 2 t)) acc
      = step (grid0.coords t) (blk0 m c t) (blk1 m c t) (blk2 m c t) acc :=
  step_congr _ _ _ _ _ _ _ _ (fun j h => fill_row_0 t _ _ _ j h) (fun j h => fill_row_1 t _ _ _ j h) (fun j h => fill_row_2 t _ _ _ j h)

/-! ## The body obligation -/

theorem leaves_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live_0 t]
  show iprop(∃ d, owns (c : Thread nD τ) (ms0 t) fullShare (win0_0.fill (grid0.coords t) d (win0_0.cut (grid0.coords t) ((dats m 0 c).after 0 t)))) = _
  rw [after_0]; unfold blk0; simp only [Window.cut_fill]
theorem leaves_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live_1 t]
  show iprop(∃ d, owns (c : Thread nD τ) (ms1 t) fullShare (win0_1.fill (grid0.coords t) d (win0_1.cut (grid0.coords t) ((dats m 0 c).after 1 t)))) = _
  rw [after_1]; unfold blk1; simp only [Window.cut_fill]
theorem leaves_2 (c : Dev nD) (t : Fin cfg0.N) :
    (dats m 0 c).leaves 2 t = iprop(∃ d, owns (c : Thread nD τ) (ms2 t) fullShare (win0_2.fill (grid0.coords t) d (iblk m c 2 t))) := by
  unfold Dat.leaves; rw [live_2 t]
  show iprop(∃ d, owns (c : Thread nD τ) (ms2 t) fullShare (win0_2.fill (grid0.coords t) d (win0_2.cut (grid0.coords t) ((dats m 0 c).after 2 t)))) = _
  rw [after_2]; unfold blk2; simp only [Window.cut_fill]
theorem leaves_3_last (c : Dev nD) (t : Fin cfg0.N) (h : condLast (grid0.coords t)) :
    (dats m 0 c).leaves 3 t = owns (c : Thread nD τ) (ms3 t) fullShare (accAt m c t.val t.isLt) := by
  unfold Dat.leaves; rw [live_3 t h]
  show owns (c : Thread nD τ) (ms3 t) fullShare ((dats m 0 c).after 3 t) = _
  rw [after_3]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any point: the case is read off the point's position among the class tiles; the run applies to the
    buffers as the fetches left them; the scratch comes back at the accumulator's next value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 8 := lt_of_lt_of_eq t.isLt (show cfg0.N = 8 from N_0)
  by_cases h0 : t.val % 4 = 0
  · have h1 : ¬t.val % 4 = 3 := by omega
    have hc0 : condReset (grid0.coords t) := (hcondReset t).mpr h0
    have hc1 : ¬condLast (grid0.coords t) := fun h => h1 ((hcondLast t).mp h)
    rw [Dat.leaves_idle (dats m 0 c) 3 t (idle_3 t hc1) (noFlush_3 t hc1)]
    rw [accAt_reset m c t h0]
    have hPhi : (dats m 0 c).Φ t.castSucc ⊢ (iprop(iprop(∃ d, owns (c : Thread nD τ) scM fullShare d) ∗ (∃ r, prngReg c r)) : sProp 𝕄) := by
      rw [PhiS_castSucc m c t]
      by_cases hz : t.val = 0
      · rw [PhiS_zero m c _ _ hz, PhiA_eq]
      · rw [PhiS_pos m c _ _ hz]
        iintro ⟨HS0, Hg⟩
        isplitl [HS0]; · iexists _; iexact HS0
        iexact Hg
    iintro ⟨HΦ, Ho, ⟨%d0, H0⟩, ⟨%d1, H1⟩, ⟨%d2, H2⟩, ⟨%d3, H3⟩⟩
    ihave HΦ' := hPhi $$ HΦ
    icases HΦ' with ⟨⟨%ds, HS0⟩, Hg⟩
    iapply ((kernelRun_A c (grid0.coords t) (ms0 t) (hs0 t) (ms1 t) (hs1 t) (ms2 t) (hs2 t) (ms3 t) (hs3 t) scM (Memref.isWhole_whole _) hc0 hc1 _ _ _ ds).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro
        rw [View.read_writes_eq_canon _ _ _ (scover_A c _ _ _ _ _ _ _ _ _ _ _ hc0 hc1 _ _ _ _), canon_A]
        exact step_fill m c t _ _ _ _
      iexact Hg
    isplitl [Ho]; · iexact Ho
    isplitl [H0]; · iexists d0; iexact H0
    isplitl [H1]; · iexists d1; iexact H1
    isplitl [H2]; · iexists d2; iexact H2
    iexists d3; iexact H3
  · have hz : t.val ≠ 0 := fun h => h0 (by rw [h])
    have hc0 : ¬condReset (grid0.coords t) := fun h => h0 ((hcondReset t).mp h)
    rw [accAt_acc m c t h0]
    rw [PhiS_castSucc m c t, PhiS_pos m c _ _ hz]
    by_cases h1 : t.val % 4 = 3
    · have hc1 : condLast (grid0.coords t) := (hcondLast t).mpr h1
      rw [leaves_3_last m c t hc1, accAt_acc m c t h0]
      iintro ⟨⟨HS0, Hg⟩, Ho, ⟨%d0, H0⟩, ⟨%d1, H1⟩, ⟨%d2, H2⟩, ⟨%d3, H3⟩⟩
      iapply ((kernelRun_C c (grid0.coords t) (ms0 t) (hs0 t) (ms1 t) (hs1 t) (ms2 t) (hs2 t) (ms3 t) (hs3 t) scM (Memref.isWhole_whole _) hc0 hc1 _ _ _ _).2.2 _ Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro
          rw [View.read_writes_eq_canon _ _ _ (scover_C c _ _ _ _ _ _ _ _ _ _ _ hc0 hc1 _ _ _ _), canon_CS]
          exact step_fill m c t _ _ _ _
        iexact Hg
      isplitl [Ho]; · iexact Ho
      isplitl [H0]; · iexists d0; iexact H0
      isplitl [H1]; · iexists d1; iexact H1
      isplitl [H2]; · iexists d2; iexact H2
      unfold owns; iexists _; isplitr
      swap; · iexact H3
      ipureintro
      rw [View.read_writes_eq_canon _ _ _ (cover_C c _ _ _ _ _ _ _ _ _ _ _ hc0 hc1 _ _ _ _), canon_CO]
      exact step_fill m c t _ _ _ _
    · have hc1 : ¬condLast (grid0.coords t) := fun h => h1 ((hcondLast t).mp h)
      rw [Dat.leaves_idle (dats m 0 c) 3 t (idle_3 t hc1) (noFlush_3 t hc1)]
      iintro ⟨⟨HS0, Hg⟩, Ho, ⟨%d0, H0⟩, ⟨%d1, H1⟩, ⟨%d2, H2⟩, ⟨%d3, H3⟩⟩
      iapply ((kernelRun_B c (grid0.coords t) (ms0 t) (hs0 t) (ms1 t) (hs1 t) (ms2 t) (hs2 t) (ms3 t) (hs3 t) scM (Memref.isWhole_whole _) hc0 hc1 _ _ _ _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro
          rw [View.read_writes_eq_canon _ _ _ (scover_B c _ _ _ _ _ _ _ _ _ _ _ hc0 hc1 _ _ _ _), canon_B]
          exact step_fill m c t _ _ _ _
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS0, Hg⟩
  isplitl [HS0]
  · iexists _; iexact HS0
  iexact Hg

/-! ## The run and the frame -/

set_option backward.isDefEq.respectTransparency.types false in
/-- Every weakly fair execution of the program terminates, and every final state has the pipeline's arrays at what the
    proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KRuns.lean ====
/-
  The kernel body run on whole staging buffers, once per way its two branches go.

  A grid point is (sample tile, class tile). At the first class tile the scratch accumulator is reset to zero; at
  every class tile the block's masked column sums are added to it; at the last class tile it is copied to the
  output's buffer. Three cases meet the grid: first tile (reset, no copy), middle tiles (neither), last tile (copy).
  Each case's run yields the stores it leaves in the scratch (and, at the last tile, in the output's buffer).
-/
import proofs.«107965_j30399778521687_2_alg».proof.Proof.Gen.KernelIdeal.Frame
import proofs.«107965_j30399778521687_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- The first class tile of a sample tile: the accumulator is reset there. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 4 = 0 :=
  (by decide +kernel : ∀ t : Fin grid0.N, condReset (grid0.coords t) ↔ t.val % 4 = 0)

/-- The last class tile of a sample tile: the accumulator is stored to the output block there. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-- The input windows are never idle; the output window is idle, and not written back, away from the last class tile. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
theorem live_3 : ∀ t : Fin cfg0.N, condLast (grid0.coords t) → cfg0.idle 3 (grid0.coords t) = false := by decide +kernel

/-- The windows' current staging memrefs at a point, the scratch, and the views their contents are stated through. -/
abbrev ms0 (t : Fin cfg0.N) : Memref sig .tc .vmem S128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev scM : Memref sig .tc .vmem S1x128 .f32 := Memref.whole cc0_scratch0
abbrev VS : View sig .tc .vmem S1x128 .f32 := scM.view
abbrev VO : View sig .tc .vmem S1x128 .f32 := (Memref.whole cc0_stg3_0 : Memref sig .tc .vmem S1x128 .f32).view

/-- The region's invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

set_option maxHeartbeats 1000000 in
/-- The body on whole memrefs, the two branches decided as the hypotheses say: what its stores leave in the scratch, as pieces. -/
noncomputable def kernelRun_A (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : condReset i) (hc1 : ¬condLast i)
    (x0 : Vec F S128x128 .f32) (x1 : Vec F S128x128 .i32) (x2 : Vec F S128x128x256 .f32) (xs0 : Vec F S1x128 .f32) :
    { LS0 : List (View.Piece (Elt F) S1x128 .f32) //
      ∀ (xi3 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body on whole memrefs, the two branches decided as the hypotheses say: what its stores leave in the scratch, as pieces. -/
noncomputable def kernelRun_B (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : ¬condLast i)
    (x0 : Vec F S128x128 .f32) (x1 : Vec F S128x128 .i32) (x2 : Vec F S128x128x256 .f32) (xs0 : Vec F S1x128 .f32) :
    { LS0 : List (View.Piece (Elt F) S1x128 .f32) //
      ∀ (xi3 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body on whole memrefs at a last class tile: what its stores leave in the output's buffer and in the scratch, as pieces. -/
noncomputable def kernelRun_C (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i)
    (x0 : Vec F S128x128 .f32) (x1 : Vec F S128x128 .i32) (x2 : Vec F S128x128x256 .f32) (xs0 : Vec F S1x128 .f32) :
    Σ' (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun xi3 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

/-- Each case's stores into the scratch cover it, and the last tile's store into the output's buffer covers it. -/
theorem scover_A (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : condReset i) (hc1 : ¬condLast i)
    (x0 : Vec F S128x128 .f32) (x1 : Vec F S128x128 .i32) (x2 : Vec F S128x128x256 .f32) (xs0 : Vec F S1x128 .f32) (y : S1x128.Idx) :
    ∃ pc ∈ (kernelRun_A c i arg2 harg2 arg3 harg3 arg4 harg4 arg5 harg5 arg6 harg6 hc0 hc1 x0 x1 x2 xs0).1, y ∈ pc.1.set :=
  View.cover_of_tiledL (kernelRun_A c i arg2 harg2 arg3 harg3 arg4 harg4 arg5 harg5 arg6 harg6 hc0 hc1 x0 x1 x2 xs0).1 S1x128.size (by sl_kernel_rfl) y
theorem scover_B (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : ¬condLast i)
    (x0 : Vec F S128x128 .f32) (x1 : Vec F S128x128 .i32) (x2 : Vec F S128x128x256 .f32) (xs0 : Vec F S1x128 .f32) (y : S1x128.Idx) :
    ∃ pc ∈ (kernelRun_B c i arg2 harg2 arg3 harg3 arg4 harg4 arg5 harg5 arg6 harg6 hc0 hc1 x0 x1 x2 xs0).1, y ∈ pc.1.set :=
  View.cover_of_tiledL (kernelRun_B c i arg2 harg2 arg3 harg3 arg4 harg4 arg5 harg5 arg6 harg6 hc0 hc1 x0 x1 x2 xs0).1 S1x128.size (by sl_kernel_rfl) y
theorem scover_C (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i)
    (x0 : Vec F S128x128 .f32) (x1 : Vec F S128x128 .i32) (x2 : Vec F S128x128x256 .f32) (xs0 : Vec F S1x128 .f32) (y : S1x128.Idx) :
    ∃ pc ∈ (kernelRun_C c i arg2 harg2 arg3 harg3 arg4 harg4 arg5 harg5 arg6 harg6 hc0 hc1 x0 x1 x2 xs0).2.1, y ∈ pc.1.set :=
  View.cover_of_tiledL (kernelRun_C c i arg2 harg2 arg3 harg3 arg4 harg4 arg5 harg5 arg6 harg6 hc0 hc1 x0 x1 x2 xs0).2.1 S1x128.size (by sl_kernel_rfl) y
theorem cover_C (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i)
    (x0 : Vec F S128x128 .f32) (x1 : Vec F S128x128 .i32) (x2 : Vec F S128x128x256 .f32) (xs0 : Vec F S1x128 .f32) (y : S1x128.Idx) :
    ∃ pc ∈ (kernelRun_C c i arg2 harg2 arg3 harg3 arg4 harg4 arg5 harg5 arg6 harg6 hc0 hc1 x0 x1 x2 xs0).1, y ∈ pc.1.set :=
  View.cover_of_tiledL (kernelRun_C c i arg2 harg2 arg3 harg3 arg4 harg4 arg5 harg5 arg6 harg6 hc0 hc1 x0 x1 x2 xs0).1 S1x128.size (by sl_kernel_rfl) y

end Cert.KernelIdeal.Body

end
-- ==== Proof.Spec.lean ====
/-
  The loss both programs compute, stated once over the extended reals.

  For a sample b and a class c, with logit x = logits[b, c], label word l = labels[b, c] read as the number y, and
  m = the maximum over the 256 features of wf[c, b, ·] (a fold of max from -inf):
    softplus u  = max u 0 + log1p (exp (-|u|))            (|u| = max u (-u))
    logSig x    = -(softplus (-x))
    bce x y     = -(y * logSig x + (1 - y) * logSig (-x))
    rej l m     = max (logistic m - margin) 0  if l = 0, else 0       (margin the f32 word 0x3E99999A)
    term b c    = bce x y + rej l m
    total b     = sum over the 500 classes c of term b c.
  No module of a program is imported here.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- log (1 + e^u), as max u 0 + log1p (exp (-|u|)). -/
def softplus (u : EReal) : EReal := max u 0 + Ideal.log1p (Ideal.exp (-(max u (-u))))

/-- log (sigmoid x) = -(softplus (-x)). -/
def logSig (x : EReal) : EReal := -(softplus (-x))

/-- The binary cross-entropy of a logit x against a label value y. -/
def bce (x y : EReal) : EReal := -(y * logSig x + (1 - y) * logSig (-x))

/-- The maximum over the features of wf[c, b, ·]: the fold of max from the word for -inf. -/
def rowMax (wf : (⟨3, ![500, 256, 256]⟩ : Shape).Idx → EReal) (c : Fin 500) (b : Fin 256) : EReal :=
  (Finset.univ : Finset (Fin 256)).fold max (Ideal.ofBits .f32 0xFF800000#32) (fun k => wf (ix3 c b k))

/-- The rejection margin of a pair whose label word is zero; zero otherwise. -/
def rej (l : BitVec 32) (m : EReal) : EReal :=
  if l = 0#32 then max (Ideal.logistic m - Ideal.ofBits .f32 0x3E99999A#32) 0 else 0

/-- One (sample, class) pair's contribution. -/
def term (logits : (⟨2, ![256, 500]⟩ : Shape).Idx → EReal) (wf : (⟨3, ![500, 256, 256]⟩ : Shape).Idx → EReal)
    (labels : (⟨2, ![256, 500]⟩ : Shape).Idx → BitVec 32) (b : Fin 256) (c : Fin 500) : EReal :=
  bce (logits (ix2 b c)) (FloatOps.sitofp (F := Ideal) .f32 (labels (ix2 b c))) + rej (labels (ix2 b c)) (rowMax wf c b)

/-- A sample's loss: the sum of its 500 pairs' contributions. -/
def total (logits : (⟨2, ![256, 500]⟩ : Shape).Idx → EReal) (wf : (⟨3, ![500, 256, 256]⟩ : Shape).Idx → EReal)
    (labels : (⟨2, ![256, 500]⟩ : Shape).Idx → BitVec 32) : (⟨1, ![256]⟩ : Shape).Idx → EReal :=
  fun j => ∑ c : Fin 500, term logits wf labels (j 0) c

end Cert.Loss

end
-- ==== Proof.KStep.lean ====
/-
  The ideal program's stored value at a grid point, as a pure function of the three loaded blocks and the accumulator:
  it does not depend on the rows the class mask drops (at every float instance), and at the ideal instance it is the old
  accumulator plus the block's masked sum of the specification's per-pair terms.
-/
import proofs.«107965_j30399778521687_2_alg».proof.Proof.Gen.KernelIdeal.Skeleton
import proofs.«107965_j30399778521687_2_alg».proof.Proof.Spec
import Idealize.ShloMosaic.Lib.ValueIdx
import Idealize.ShloMosaic.PureOps.Reduce
import Idealize.ShloMosaic.Lib.Pipeline.Value
import Idealize.ShloMosaic.Lib.ValueLayout

noncomputable section

open scoped BigOperators

namespace Cert.KernelIdeal.KStep

open Idealize.ShloMosaic Idealize.ShloMosaic.ValueIdx Cert.KernelIdeal Cert.KernelIdeal.Gen

variable {F : FTy → Type} [FloatOps F]

/-- what the body stores into the scratch at point i -/
def step (i : grid0.Coords) (x : Vec F S128x128 .f32) (l : Vec F S128x128 .i32) (w : Vec F S128x128x256 .f32) (acc : Vec F S1x128 .f32) : Vec F S1x128 .f32 :=
  k0_pay1 (k0_pay11 (k0_pay4 l) (k0_pay6 i) (k0_pay7 x l) (k0_pay8 l) (k0_pay9 x) (Scalar.ofBits .f32 0x00000000#32) (k0_pay10 x) w acc)

/-- The mask bit of row (j 0) of class block (i 1) is set exactly when the class index (i 1) * 128 + (j 0) is below 500:
    the 32-bit product and sum do not wrap ((i 1) < 4, (j 0) < 128), and the signed comparison of two small
    non-negative words is the comparison of the naturals. -/
theorem mask_eq_one_iff (i : grid0.Coords) (j : S128x128.Idx) :
    k0_pay6 i j = 1#1 ↔ (i 1).val * 128 + (j 0).val < 500 := by
  have hi : (i 1).val < 4 := (i 1).isLt
  have hj : (j 0).val < 128 := (j 0).isLt
  show IntOp.cmpi .slt (IntOp.addi (Scalar.muli (BitVec.ofNat 32 (i 1).val) 128#32) (iota .tc S128x128 32 [0] iota_S128x128_d0_w32 j)) 500#32 = 1#1 ↔ _
  rw [iota_single_apply]
  generalize (i 1).val = a at *
  generalize (j 0).val = b at *
  simp only [IntOp.cmpi, IntOp.addi, Scalar.muli, IntOp.muli]
  have e : BitVec.ofNat 32 a * 128#32 + BitVec.ofNat 32 b = BitVec.ofNat 32 (a * 128 + b) := by
    simp [BitVec.ofNat_add, BitVec.ofNat_mul]
  rw [e]
  have h2 : (BitVec.ofNat 32 (a * 128 + b)).toInt = ((a * 128 + b : Nat) : Int) := by
    have h3 : (BitVec.ofNat 32 (a * 128 + b)).toNat = a * 128 + b := by
      rw [BitVec.toNat_ofNat]; omega
    unfold BitVec.toInt
    rw [h3]
    split <;> omega
  have h4 : (500#32 : BitVec 32).toInt = 500 := by decide
  simp only [BitVec.slt, h2, h4]
  by_cases h : a * 128 + b < 500
  · have h' : (a : Int) * 128 + b < 500 := by omega
    simp [h, h']
  · have h' : ¬ (a : Int) * 128 + b < 500 := by omega
    simp [h, h']

/-- Two pairs of blocks that agree on the rows the mask keeps give the same masked sum a + o * b: on a kept row the
    selects read the agreeing elements, on a dropped row they read the fill values. -/
theorem masked_congr {s : Shape} {φ : FTy} (m : IVec s 1) (a a' b b' z z' o : FVec F s φ)
    (h : ∀ j, m j = 1#1 → a j = a' j ∧ b j = b' j) :
    addf (select m a z) (mulf o (select m b z')) = addf (select m a' z) (mulf o (select m b' z')) := by
  funext j
  show FloatOps.addf (Scalar.select (m j) (a j) (z j)) (FloatOps.mulf (o j) (Scalar.select (m j) (b j) (z' j)))
    = FloatOps.addf (Scalar.select (m j) (a' j) (z j)) (FloatOps.mulf (o j) (Scalar.select (m j) (b' j) (z' j)))
  by_cases hm : m j = 1#1
  · obtain ⟨ha, hb⟩ := h j hm
    rw [ha, hb]
  · rw [eq_zero_of_ne_one hm, select_zero, select_zero, select_zero, select_zero]

/-- The maximum along the last axis, read at (r, q), is a left fold over the source indices that drop to (r, q); each of
    them has first coordinate r, so two blocks that agree on row r have the same maximum there. -/
theorem rowmax_congr (w w' : FVec F S128x128x256 .f32) (j : S128x128.Idx)
    (h : ∀ k : S128x128x256.Idx, (k 0).val = (j 0).val → w k = w' k) :
    multiReduction .maximumf [2] S128x128 w 0xFF800000#32 reduces_S128x128x256_S128x128 (.inl rfl) rfl j
      = multiReduction .maximumf [2] S128x128 w' 0xFF800000#32 reduces_S128x128x256_S128x128 (.inl rfl) rfl j := by
  show reduceFold reduces_S128x128x256_S128x128 FloatOps.maximumf (FloatOps.ofBits .f32 0xFF800000#32) w j
    = reduceFold reduces_S128x128x256_S128x128 FloatOps.maximumf (FloatOps.ofBits .f32 0xFF800000#32) w' j
  rw [reduceFold_eq_foldl, reduceFold_eq_foldl]
  refine List.foldl_ext _ _ _ (fun r k hk => ?_)
  have hd : reduces_S128x128x256_S128x128.drop k = j := by
    simpa using (List.mem_filter.1 hk).2
  have h0 : (k 0).val = (j 0).val := by
    rw [← hd]; exact (reduces_S128x128x256_S128x128.drop_apply_val_of_eq k 0 0).symm
  rw [h k h0]

/-- (B1) rows of the blocks whose class index (i 1)*128 + row is 500 or more do not matter: the body masks them before
    it sums. The stored value depends on the three blocks only through the masked sum a + 1 * b of the loss part a and
    the margin part b; on a kept row both are pointwise in the logits and labels and read the third block only through
    that row's maxima. -/
theorem step_congr (i : grid0.Coords) (x x' : Vec F S128x128 .f32) (l l' : Vec F S128x128 .i32) (w w' : Vec F S128x128x256 .f32) (acc : Vec F S1x128 .f32)
    (hx : ∀ j : S128x128.Idx, (i 1).val * 128 + (j 0).val < 500 → x j = x' j)
    (hl : ∀ j : S128x128.Idx, (i 1).val * 128 + (j 0).val < 500 → l j = l' j)
    (hw : ∀ j : S128x128x256.Idx, (i 1).val * 128 + (j 0).val < 500 → w j = w' j) :
    step i x l w acc = step i x' l' w' acc := by
  unfold step
  refine congrArg k0_pay1 ?_
  unfold k0_pay11
  refine congrArg (fun v => addf acc (shapeCast S1x128 (multiReduction .add [0] S128 v 0x00000000#32 reduces_S128x128_S128 (.inl rfl) rfl) shapeCasts_S128_S1x128)) ?_
  refine masked_congr _ _ _ _ _ _ _ _ (fun j hm => ?_)
  have hj := (mask_eq_one_iff i j).1 hm
  have hxj := hx j hj
  have hlj := hl j hj
  have hwj := rowmax_congr w w' j (fun k hk => hw k (by omega))
  refine ⟨?_, ?_⟩
  · simp only [subf, addf, mulf, select, cmpf, absf, exp, log1p, maximumf, broadcast, k0_pay7, k0_pay8, k0_pay9,
      k0_pay10, k0_pay3, k0_pay5, k0_pay4, sitofp, shapeCast_self, hxj, hlj]
  · simp only [select, cmpi, maximumf, subf, logistic, broadcast, k0_pay4, shapeCast_self, hlj, hwj]

/-- (B2') the reset value is zero. -/
theorem reset_apply (j : S1x128.Idx) : k0_pay2 (F := Ideal) j = 0 := by
  show Ideal.ofBits .f32 0x00000000#32 = 0
  exact Ideal.ofBits_zero_f32

/-- (B3) four masked blocks of 128 make the 500 classes: the four block sums are the sum over the first 512 naturals of
    g cut off at 500, and the last 12 terms are zero. -/
theorem sum_blocks (g : ℕ → EReal) :
    ((((0 : EReal) + ∑ r : Fin 128, (if 0 * 128 + r.val < 500 then g (0 * 128 + r.val) else 0)) + ∑ r : Fin 128, (if 1 * 128 + r.val < 500 then g (1 * 128 + r.val) else 0))
      + ∑ r : Fin 128, (if 2 * 128 + r.val < 500 then g (2 * 128 + r.val) else 0)) + ∑ r : Fin 128, (if 3 * 128 + r.val < 500 then g (3 * 128 + r.val) else 0)
    = ∑ c : Fin 500, g c.val := by
  have hb : ∀ b : ℕ, ∑ r : Fin 128, (if b * 128 + r.val < 500 then g (b * 128 + r.val) else 0)
      = ∑ r ∈ Finset.range 128, (fun n => if n < 500 then g n else 0) (b * 128 + r) := fun b =>
    Fin.sum_univ_eq_sum_range (fun r => (fun n => if n < 500 then g n else 0) (b * 128 + r)) 128
  rw [hb 0, hb 1, hb 2, hb 3, zero_add]
  have e : ∀ G : ℕ → EReal, ∑ r ∈ Finset.range 128, G (0 * 128 + r) + ∑ r ∈ Finset.range 128, G (1 * 128 + r)
      + ∑ r ∈ Finset.range 128, G (2 * 128 + r) + ∑ r ∈ Finset.range 128, G (3 * 128 + r)
        = ∑ n ∈ Finset.range (128 + 128 + 128 + 128), G n := by
    intro G
    rw [Finset.sum_range_add, Finset.sum_range_add, Finset.sum_range_add]
    simp only [Nat.reduceMul, Nat.reduceAdd, zero_add]
  refine (e (fun n => if n < 500 then g n else 0)).trans ?_
  rw [show (128 + 128 + 128 + 128 : ℕ) = 500 + 12 from rfl, Finset.sum_range_add]
  rw [Finset.sum_eq_zero (s := Finset.range 12) (fun x _ => if_neg (by omega)), add_zero]
  rw [Fin.sum_univ_eq_sum_range (fun n => g n) 500]
  exact Finset.sum_congr rfl (fun n hn => if_pos (Finset.mem_range.1 hn))

/-- The sum down the rows of a block, read at column q. -/
theorem rowsum_apply (v : FVec Ideal S128x128 .f32) (q : Fin 128) :
    multiReduction (F := Ideal) .add [0] S128 v 0x00000000#32 reduces_S128x128_S128 (.inl rfl) rfl (ix1 q)
      = ∑ r : Fin 128, v (ix2 r q) := by
  refine (Ideal.multiReduction_add_single v _ reduces_S128x128_S128 _ _ (ix1 q)).trans ?_
  refine Finset.sum_congr rfl (fun r _ => congrArg v ?_)
  funext a
  match a with
  | ⟨0, _⟩ => rfl
  | ⟨1, _⟩ => rfl

/-- The maximum along the last axis of a block, read at (r, q). -/
theorem rowmax_apply (w : FVec Ideal S128x128x256 .f32) (r q : Fin 128) :
    multiReduction (F := Ideal) .maximumf [2] S128x128 w 0xFF800000#32 reduces_S128x128x256_S128x128 (.inl rfl) rfl (ix2 r q)
      = (Finset.univ : Finset (Fin 256)).fold max (Ideal.ofBits .f32 0xFF800000#32) (fun k => w (ix3 r q k)) := by
  refine (Ideal.multiReduction_maximumf_single w _ reduces_S128x128x256_S128x128 _ _ (ix2 r q)).trans ?_
  refine congrArg (Finset.fold max (Ideal.ofBits .f32 0xFF800000#32) · Finset.univ) ?_
  funext k
  refine congrArg w ?_
  funext a
  match a with
  | ⟨0, _⟩ => rfl
  | ⟨1, _⟩ => rfl
  | ⟨2, _⟩ => rfl

/-- The kernel's spelling of softplus: the select on "u ≠ u" takes its last operand. -/
theorem sp_eq (u : EReal) :
    Scalar.select (Ideal.cmp .one (u - 0) (u - 0)) (u + 0)
        (max u 0 + Ideal.log1p (Ideal.exp (0 - max (u - 0) (-(u - 0))))) = Cert.Loss.softplus u := by
  have h : Ideal.cmp .one (u - 0) (u - 0) = 0#1 := by simp [Ideal.cmp]
  rw [h, select_zero, sub_zero, zero_sub]
  rfl

/-- The f32 word of one denotes one. -/
theorem ofBits_one_f32 : Ideal.ofBits .f32 0x3F800000#32 = 1 := by
  simp [Ideal.ofBits, Ideal.ieee, -EReal.coe_mul]; norm_num

/-- The masked sum a + 1 * b read at an index: a + b on a kept row, zero on a dropped one. -/
theorem masked_apply {s : Shape} (m : IVec s 1) (a b : FVec Ideal s .f32) (j : s.Idx) :
    addf (select m a (broadcast s (Scalar.ofBits .f32 0x00000000#32)))
        (mulf (broadcast s (Scalar.ofBits .f32 0x3F800000#32)) (select m b (broadcast s (Scalar.ofBits .f32 0x00000000#32)))) j
      = if m j = 1#1 then a j + b j else 0 := by
  show Scalar.select (m j) (a j) (Ideal.ofBits .f32 0x00000000#32)
      + Ideal.ofBits .f32 0x3F800000#32 * Scalar.select (m j) (b j) (Ideal.ofBits .f32 0x00000000#32) = _
  rw [Ideal.ofBits_zero_f32, ofBits_one_f32, one_mul]
  by_cases hm : m j = 1#1
  · rw [if_pos hm, hm, select_one, select_one]
  · rw [if_neg hm, eq_zero_of_ne_one hm, select_zero, select_zero, add_zero]

/-- A select on "the label word is zero" is the if on that equation. -/
theorem select_eq_zero_word (lv : BitVec 32) (a b : EReal) :
    Scalar.select (IntOp.cmpi .eq lv 0#32) a b = if lv = 0#32 then a else b := by
  by_cases h : lv = 0#32
  · subst h
    rw [if_pos rfl]
    rfl
  · have hc : IntOp.cmpi .eq lv 0#32 = 0#1 := by
      show BitVec.ofBool (lv == 0#32) = 0#1
      rw [show (lv == 0#32) = false from beq_eq_false_iff_ne.2 h]
      rfl
    rw [hc, select_zero, if_neg h]

/-- The margin part read at an index, for any vector M of row maxima: the specification's rej of the label word and M there. -/
theorem rej_apply {s : Shape} (l : IVec s 32) (M : FVec Ideal s .f32) (j : s.Idx) :
    select (cmpi .eq l (broadcast s 0#32))
        (maximumf (subf (logistic M) (broadcast s (Scalar.ofBits .f32 0x3E99999A#32))) (broadcast s (Scalar.ofBits .f32 0x00000000#32)))
        (broadcast s (Scalar.ofBits .f32 0x00000000#32)) j
      = Cert.Loss.rej (l j) (M j) := by
  show Scalar.select (IntOp.cmpi .eq (l j) 0#32)
      (max (Ideal.logistic (M j) - Ideal.ofBits .f32 0x3E99999A#32) (Ideal.ofBits .f32 0x00000000#32))
      (Ideal.ofBits .f32 0x00000000#32) = _
  rw [Ideal.ofBits_zero_f32, select_eq_zero_word]
  rfl

/-- (B2, at Ideal) the stored value at sample column q: the old accumulator plus the block's masked sum of the
    specification's terms. The stored row is the accumulator plus the column sums of the masked block a + 1 * b; on a
    kept row a is the kernel's spelling of the cross-entropy (0 - u for -u, u - 0 and u + 0 for u, the select on u ≠ u
    taking its last operand) and b is the margin of that row's maximum where the label word is zero. -/
theorem step_apply (i : grid0.Coords) (x : Vec Ideal S128x128 .f32) (l : Vec Ideal S128x128 .i32) (w : Vec Ideal S128x128x256 .f32) (acc : Vec Ideal S1x128 .f32) (q : Fin 128) :
    step (F := Ideal) i x l w acc (ix2 (0 : Fin 1) q)
      = acc (ix2 (0 : Fin 1) q) + ∑ r : Fin 128, (if (i 1).val * 128 + r.val < 500
          then Cert.Loss.bce (x (ix2 r q)) (FloatOps.sitofp (F := Ideal) .f32 (l (ix2 r q)))
               + Cert.Loss.rej (l (ix2 r q)) ((Finset.univ : Finset (Fin 256)).fold max (Ideal.ofBits .f32 0xFF800000#32) (fun k => w (ix3 r q k)))
          else 0) := by
  unfold step
  rw [k0_pay1, shapeCast_self]
  unfold k0_pay11
  show acc (ix2 (0 : Fin 1) q) + shapeCast S1x128 (multiReduction (F := Ideal) .add [0] S128 _ 0x00000000#32 reduces_S128x128_S128 (.inl rfl) rfl) shapeCasts_S128_S1x128 (ix2 (0 : Fin 1) q) = _
  refine congrArg (acc (ix2 (0 : Fin 1) q) + ·) ?_
  refine (shapeCast_a_1a_apply _ shapeCasts_S128_S1x128 (0 : Fin 1) q).trans ?_
  refine (rowsum_apply _ q).trans ?_
  refine Finset.sum_congr rfl (fun r _ => ?_)
  refine (masked_apply _ _ _ _).trans ?_
  have hmask : (k0_pay6 i (ix2 r q) = 1#1) ↔ (i 1).val * 128 + r.val < 500 := mask_eq_one_iff i (ix2 r q)
  by_cases hm : (i 1).val * 128 + r.val < 500
  · rw [if_pos hm, if_pos (hmask.2 hm)]
    refine congrArg₂ (· + ·) ?_ ?_
    · simp only [addf, subf, mulf, select, cmpf, absf, exp, log1p, maximumf, broadcast, sitofp,
        k0_pay7, k0_pay8, k0_pay9, k0_pay10, k0_pay3, k0_pay5, k0_pay4, shapeCast_self]
      simp only [Ideal.addf_def, Ideal.subf_def, Ideal.mulf_def, Ideal.maximumf_def, Ideal.exp_def, Ideal.log1p_def,
        Ideal.cmpf_def, Ideal.absf_def, Ideal.ofBits_def]
      generalize x (ix2 r q) = xv
      generalize FloatOps.sitofp (F := Ideal) .f32 (l (ix2 r q)) = y
      rw [Ideal.ofBits_zero_f32, ofBits_one_f32]
      rw [sp_eq (0 - xv), sp_eq (0 - (0 - xv))]
      simp only [zero_sub]
      unfold Cert.Loss.bce Cert.Loss.logSig
      with_reducible_and_instances rfl
    · have e4 : k0_pay4 (F := Ideal) l = l := shapeCast_self l _
      rw [e4]
      refine (rej_apply l _ (ix2 r q)).trans ?_
      exact congrArg (Cert.Loss.rej (l (ix2 r q))) (rowmax_apply w r q)
  · rw [if_neg hm, if_neg (fun h => hm (hmask.1 h))]

end Cert.KernelIdeal.KStep

end
-- ==== Proof.KBody.lean ====
/-
  The frame of the kernel's program: the proof data of its one pipeline, the body obligation, the run.

  What the scratch accumulator holds after each grid point is defined by recursion on the point (accAt): the body's
  step of the point's three input blocks, from zero at the first class tile of a sample tile and from the previous
  point's value elsewhere. The inputs' last class tile overhangs their arrays by twelve rows, so the body is handed
  buffers whose rows past the array hold words nothing names; the step masks those rows before it sums, so it is the
  step of the blocks filled out with zeros (step_fill). The output's buffer is stored only at the last class tile and
  is idle, and not written back, at the others.
-/
import proofs.«107965_j30399778521687_2_alg».proof.Proof.KRuns
import proofs.«107965_j30399778521687_2_alg».proof.Proof.KStep
import Idealize.ShloMosaic.Lib.Pipeline.Value
import proofs.«107965_j30399778521687_2_alg».proof.Proof.Gen.KernelIdeal.Frame
import proofs.«107965_j30399778521687_2_alg».proof.Proof.Gen.KernelIdeal.Skeleton
import Idealize.ShloMosaic.Lib.Pipeline.Frame
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen Cert.KernelIdeal.KStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Middle class tiles: the scratch ends at the step of the loaded blocks and its own contents. -/
theorem canon_B (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : ¬condLast i) (x0 : Vec F S128x128 .f32) (x1 : Vec F S128x128 .i32) (x2 : Vec F S128x128x256 .f32) (xs0 : Vec F S1x128 .f32) :
    View.canon (kernelRun_B c i arg2 harg2 arg3 harg3 arg4 harg4 arg5 harg5 arg6 harg6 hc0 hc1 x0 x1 x2 xs0).1 = step i x0 x1 x2 xs0 := by
  unfold kernelRun_B
  dsimp only
  sl_unfold_words
  rw [View.canon_unit_zero hz2]
  unfold step
  simp only [View.readAt_eq_ld, harg2.read_unread, harg3.read_unread, harg4.read_unread, harg6.read_unread, View.ld_unit_zero (S := S128x128) hz2, View.ld_unit_zero (S := S1x128) hz2, View.ld_unit_zero (S := S128x128x256) hz3]

/-- First class tile: the scratch is zeroed, read back, and ends at the step from zero. -/
theorem canon_A (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : condReset i) (hc1 : ¬condLast i) (x0 : Vec F S128x128 .f32) (x1 : Vec F S128x128 .i32) (x2 : Vec F S128x128x256 .f32) (xs0 : Vec F S1x128 .f32) :
    View.canon (kernelRun_A c i arg2 harg2 arg3 harg3 arg4 harg4 arg5 harg5 arg6 harg6 hc0 hc1 x0 x1 x2 xs0).1 = step i x0 x1 x2 (k0_pay2 (F := F)) := by
  unfold kernelRun_A
  dsimp only
  sl_unfold_words
  rw [View.canon_cons_unit_zero (S := S1x128) hz2]
  unfold step
  simp only [View.readCov_unit_zero (S := S1x128) _ hz2]
  simp only [View.readAt_eq_ld, harg2.read_unread, harg3.read_unread, harg4.read_unread, harg6.read_unread, View.ld_unit_zero (S := S128x128) hz2, View.ld_unit_zero (S := S1x128) hz2, View.ld_unit_zero (S := S128x128x256) hz3]

/-- Last class tile: the scratch ends at the step, -/
theorem canon_CS (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i) (x0 : Vec F S128x128 .f32) (x1 : Vec F S128x128 .i32) (x2 : Vec F S128x128x256 .f32) (xs0 : Vec F S1x128 .f32) :
    View.canon (kernelRun_C c i arg2 harg2 arg3 harg3 arg4 harg4 arg5 harg5 arg6 harg6 hc0 hc1 x0 x1 x2 xs0).2.1 = step i x0 x1 x2 xs0 := by
  unfold kernelRun_C
  dsimp only
  sl_unfold_words
  rw [View.canon_unit_zero hz2]
  unfold step
  simp only [View.readAt_eq_ld, harg2.read_unread, harg3.read_unread, harg4.read_unread, harg6.read_unread, View.ld_unit_zero (S := S128x128) hz2, View.ld_unit_zero (S := S1x128) hz2, View.ld_unit_zero (S := S128x128x256) hz3]

/-- and the output's buffer at the same value, read back from the scratch. -/
theorem canon_CO (c : Dev nD) (i : grid0.Coords) (arg2 : Memref sig .tc .vmem S128x128 .f32) (harg2 : arg2.IsWhole) (arg3 : Memref sig .tc .vmem S128x128 .i32) (harg3 : arg3.IsWhole) (arg4 : Memref sig .tc .vmem S128x128x256 .f32) (harg4 : arg4.IsWhole) (arg5 : Memref sig .tc .vmem S1x128 .f32) (harg5 : arg5.IsWhole) (arg6 : Memref sig .tc .vmem S1x128 .f32) (harg6 : arg6.IsWhole) (hc0 : ¬condReset i) (hc1 : condLast i) (x0 : Vec F S128x128 .f32) (x1 : Vec F S128x128 .i32) (x2 : Vec F S128x128x256 .f32) (xs0 : Vec F S1x128 .f32) :
    View.canon (kernelRun_C c i arg2 harg2 arg3 harg3 arg4 harg4 arg5 harg5 arg6 harg6 hc0 hc1 x0 x1 x2 xs0).1 = step i x0 x1 x2 xs0 := by
  unfold kernelRun_C
  dsimp only
  sl_unfold_words
  rw [View.canon_unit_zero hz2]
  unfold step
  simp only [View.readCov_unit_zero (S := S1x128) _ hz2]
  simp only [View.readAt_eq_ld, harg2.read_unread, harg3.read_unread, harg4.read_unread, harg6.read_unread, View.ld_unit_zero (S := S128x128) hz2, View.ld_unit_zero (S := S1x128) hz2, View.ld_unit_zero (S := S128x128x256) hz3]

variable (m : (ℓ : Loc nD τ sig) → Buf (Elt F) ℓ) (ρ : Dev nD → PrngReg)

/-! ## The blocks, the accumulator point by point, the proof data -/

/-- Each input window's block at a point, as the array holds it on the rows inside the array, filled out past the
    array's end (the last class tile overhangs it by twelve rows) with a zero word that nothing reads. -/
def blk0 (c : Dev nD) (t : Fin cfg0.N) : S128x128.Idx → Elt F .f32 :=
  win0_0.fill (grid0.coords t) (fun _ => Scalar.ofBits .f32 0x00000000#32) (iblk m c 0 t)
def blk1 (c : Dev nD) (t : Fin cfg0.N) : S128x128.Idx → Elt F .i32 :=
  win0_1.fill (grid0.coords t) (fun _ => (0#32 : BitVec 32)) (iblk m c 1 t)
def blk2 (c : Dev nD) (t : Fin cfg0.N) : S128x128x256.Idx → Elt F .f32 :=
  win0_2.fill (grid0.coords t) (fun _ => Scalar.ofBits .f32 0x00000000#32) (iblk m c 2 t)

/-- THE ACCUMULATION. What the scratch holds after the body at position n: the step of the point's blocks from zero
    at a first class tile, from what the point before left elsewhere. -/
def accAt (c : Dev nD) : (n : ℕ) → n < cfg0.N → Vec F S1x128 .f32
  | 0, hn => step (grid0.coords ⟨0, hn⟩) (blk0 m c ⟨0, hn⟩) (blk1 m c ⟨0, hn⟩) (blk2 m c ⟨0, hn⟩) (k0_pay2 (F := F))
  | n + 1, hn => step (grid0.coords ⟨n + 1, hn⟩) (blk0 m c ⟨n + 1, hn⟩) (blk1 m c ⟨n + 1, hn⟩) (blk2 m c ⟨n + 1, hn⟩)
      (if (n + 1) % 4 = 0 then (k0_pay2 (F := F)) else accAt c n (Nat.lt_of_succ_lt hn))

theorem accAt_reset (c : Dev nD) (t : Fin cfg0.N) (h0 : t.val % 4 = 0) :
    accAt m c t.val t.isLt = step (grid0.coords t) (blk0 m c t) (blk1 m c t) (blk2 m c t) (k0_pay2 (F := F)) := by
  obtain ⟨n, hn⟩ := t
  cases n with
  | zero => rfl
  | succ n => exact (congrArg (step _ _ _ _) (if_pos h0))

theorem accAt_acc (c : Dev nD) (t : Fin cfg0.N) (h0 : ¬t.val % 4 = 0) :
    accAt m c t.val t.isLt = step (grid0.coords t) (blk0 m c t) (blk1 m c t) (blk2 m c t)
      (accAt m c (t.val - 1) (Nat.lt_of_le_of_lt (Nat.sub_le _ _) t.isLt)) := by
  obtain ⟨n, hn⟩ := t
  cases n with
  | zero => exact absurd (Nat.zero_mod _) h0
  | succ n => exact (congrArg (step _ _ _ _) (if_neg h0))

/-- The region's invariant before position n: before the first point the scratch at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the pipeline on core c: the arrays as the region finds them; after the body each input's
    buffer at its filled block and the output's at the accumulator; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = blk0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = blk2 m c t := by dsimp only [dats]
theorem after_3 (c : Dev nD) (t : Fin cfg0.N) : (dats m 0 c).after 3 t = accAt m c t.val t.isLt := by dsimp only [dats]

/-- What the body finds in each input's buffer: its block just fetched on the rows inside the array, anything past them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq m c 2]

/-! ## The rows a clipped fetch moves -/

/-- How many rows of each input block lie inside the array: all 128, or at the last class tile those up to class 499. -/
theorem xsize_0 : ∀ t : Fin cfg0.N, (500 ≤ (grid0.coords t 1).val * 128 + win0_0.xsize (grid0.coords t) 0 ∨ win0_0.xsize (grid0.coords t) 0 = 128) ∧ win0_0.xsize (grid0.coords t) 1 = 128 :=
  (by decide +kernel : ∀ t : Fin grid0.N, (500 ≤ (grid0.coords t 1).val * 128 + win0_0.xsize (grid0.coords t) 0 ∨ win0_0.xsize (grid0.coords t) 0 = 128) ∧ win0_0.xsize (grid0.coords t) 1 = 128)
theorem xsize_1 : ∀ t : Fin cfg0.N, (500 ≤ (grid0.coords t 1).val * 128 + win0_1.xsize (grid0.coords t) 0 ∨ win0_1.xsize (grid0.coords t) 0 = 128) ∧ win0_1.xsize (grid0.coords t) 1 = 128 :=
  (by decide +kernel : ∀ t : Fin grid0.N, (500 ≤ (grid0.coords t 1).val * 128 + win0_1.xsize (grid0.coords t) 0 ∨ win0_1.xsize (grid0.coords t) 0 = 128) ∧ win0_1.xsize (grid0.coords t) 1 = 128)
theorem xsize_2 : ∀ t : Fin cfg0.N, (500 ≤ (grid0.coords t 1).val * 128 + win0_2.xsize (grid0.coords t) 0 ∨ win0_2.xsize (grid0.coords t) 0 = 128) ∧ win0_2.xsize (grid0.coords t) 1 = 128 ∧ win0_2.xsize (grid0.coords t) 2 = 256 :=
  (by decide +kernel : ∀ t : Fin grid0.N, (500 ≤ (grid0.coords t 1).val * 128 + win0_2.xsize (grid0.coords t) 0 ∨ win0_2.xsize (grid0.coords t) 0 = 128) ∧ win0_2.xsize (grid0.coords t) 1 = 128 ∧ win0_2.xsize (grid0.coords t) 2 = 256)

/-- A row whose class index is below 500 is moved by the fetch, so what fills the buffer past the array does not show there. -/
theorem fill_row_0 {α : Type} (t : Fin cfg0.N) (d d' : S128x128.Idx → α) (g) (j : S128x128.Idx)
    (h : (grid0.coords t 1).val * 128 + (j 0).val < 500) :
    win0_0.fill (grid0.coords t) d g j = win0_0.fill (grid0.coords t) d' g j := by
  have h0 : (j 0).val < 128 := (j 0).isLt
  have h1 : (j 1).val < 128 := (j 1).isLt
  have hm : win0_0.moved (grid0.coords t) j = true := (win0_0.moved_iff _ _).mpr (fun a => by
    obtain ⟨hx0, hx1⟩ := xsize_0 t
    match a with
    | ⟨0, _⟩ => show (j 0).val < win0_0.xsize (grid0.coords t) 0; omega
    | ⟨1, _⟩ => show (j 1).val < win0_0.xsize (grid0.coords t) 1; omega)
  unfold Window.fill; rw [dif_pos hm, dif_pos hm]
theorem fill_row_1 {α : Type} (t : Fin cfg0.N) (d d' : S128x128.Idx → α) (g) (j : S128x128.Idx)
    (h : (grid0.coords t 1).val * 128 + (j 0).val < 500) :
    win0_1.fill (grid0.coords t) d g j = win0_1.fill (grid0.coords t) d' g j := by
  have h0 : (j 0).val < 128 := (j 0).isLt
  have h1 : (j 1).val < 128 := (j 1).isLt
  have hm : win0_1.moved (grid0.coords t) j = true := (win0_1.moved_iff _ _).mpr (fun a => by
    obtain ⟨hx0, hx1⟩ := xsize_1 t
    match a with
    | ⟨0, _⟩ => show (j 0).val < win0_1.xsize (grid0.coords t) 0; omega
    | ⟨1, _⟩ => show (j 1).val < win0_1.xsize (grid0.coords t) 1; omega)
  unfold Window.fill; rw [dif_pos hm, dif_pos hm]
theorem fill_row_2 {α : Type} (t : Fin cfg0.N) (d d' : S128x128x256.Idx → α) (g) (j : S128x128x256.Idx)
    (h : (grid0.coords t 1).val * 128 + (j 0).val < 500) :
    win0_2.fill (grid0.coords t) d g j = win0_2.fill (grid0.coords t) d' g j := by
  have h0 : (j 0).val < 128 := (j 0).isLt
  have h1 : (j 1).val < 128 := (j 1).isLt
  have h2 : (j 2).val < 256 := (j 2).isLt
  have hm : win0_2.moved (grid0.coords t) j = true := (win0_2.moved_iff _ _).mpr (fun a => by
    obtain ⟨hx0, hx1, hx2⟩ := xsize_2 t
    match a with
    | ⟨0, _⟩ => show (j 0).val < win0_2.xsize (grid0.coords t) 0; omega
    | ⟨1, _⟩ => show (j 1).val < win0_2.xsize (grid0.coords t) 1; omega
    | ⟨2, _⟩ => show (j 2).val < win0_2.xsize (grid0.coords t) 2; omega)
  unfold Window.fill; rw [dif_pos hm, dif_pos hm]

/-- So the step of the buffers as the fetches left them is the step of the filled blocks. -/
theorem step_fill (c : Dev nD) (t : Fin cfg0.N) (d0 d1 d2) (acc : Vec F S1x128 .f32) :
    step (grid0.coords t) (win0_0.fill (grid0.coords t) d0 (iblk m c 0 t)) (win0_1.fill (grid0.coords t) d1 (iblk m c 1 t)) (win0_2.fill (grid0.coords t) d2 (iblk m c 2 t)) acc
      = step (grid0.coords t) (blk0 m c t) (blk1 m c t) (blk2 m c t) acc :=
  step_congr _ _ _ _ _ _ _ _ (fun j h => fill_row_0 t _ _ _ j h) (fun j h => fill_row_1 t _ _ _ j h) (fun j h => fill_row_2 t _ _ _ j h)

/-! ## The body obligation -/

theorem leaves_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live_0 t]
  show iprop(∃ d, owns (c : Thread nD τ) (ms0 t) fullShare (win0_0.fill (grid0.coords t) d (win0_0.cut (grid0.coords t) ((dats m 0 c).after 0 t)))) = _
  rw [after_0]; unfold blk0; simp only [Window.cut_fill]
theorem leaves_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live_1 t]
  show iprop(∃ d, owns (c : Thread nD τ) (ms1 t) fullShare (win0_1.fill (grid0.coords t) d (win0_1.cut (grid0.coords t) ((dats m 0 c).after 1 t)))) = _
  rw [after_1]; unfold blk1; simp only [Window.cut_fill]
theorem leaves_2 (c : Dev nD) (t : Fin cfg0.N) :
    (dats m 0 c).leaves 2 t = iprop(∃ d, owns (c : Thread nD τ) (ms2 t) fullShare (win0_2.fill (grid0.coords t) d (iblk m c 2 t))) := by
  unfold Dat.leaves; rw [live_2 t]
  show iprop(∃ d, owns (c : Thread nD τ) (ms2 t) fullShare (win0_2.fill (grid0.coords t) d (win0_2.cut (grid0.coords t) ((dats m 0 c).after 2 t)))) = _
  rw [after_2]; unfold blk2; simp only [Window.cut_fill]
theorem leaves_3_last (c : Dev nD) (t : Fin cfg0.N) (h : condLast (grid0.coords t)) :
    (dats m 0 c).leaves 3 t = owns (c : Thread nD τ) (ms3 t) fullShare (accAt m c t.val t.isLt) := by
  unfold Dat.leaves; rw [live_3 t h]
  show owns (c : Thread nD τ) (ms3 t) fullShare ((dats m 0 c).after 3 t) = _
  rw [after_3]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any point: the case is read off the point's position among the class tiles; the run applies to the
    buffers as the fetches left them; the scratch comes back at the accumulator's next value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 8 := lt_of_lt_of_eq t.isLt (show cfg0.N = 8 from N_0)
  by_cases h0 : t.val % 4 = 0
  · have h1 : ¬t.val % 4 = 3 := by omega
    have hc0 : condReset (grid0.coords t) := (hcondReset t).mpr h0
    have hc1 : ¬condLast (grid0.coords t) := fun h => h1 ((hcondLast t).mp h)
    rw [Dat.leaves_idle (dats m 0 c) 3 t (idle_3 t hc1) (noFlush_3 t hc1)]
    rw [accAt_reset m c t h0]
    have hPhi : (dats m 0 c).Φ t.castSucc ⊢ (iprop(iprop(∃ d, owns (c : Thread nD τ) scM fullShare d) ∗ (∃ r, prngReg c r)) : sProp 𝕄) := by
      rw [PhiS_castSucc m c t]
      by_cases hz : t.val = 0
      · rw [PhiS_zero m c _ _ hz, PhiA_eq]
      · rw [PhiS_pos m c _ _ hz]
        iintro ⟨HS0, Hg⟩
        isplitl [HS0]; · iexists _; iexact HS0
        iexact Hg
    iintro ⟨HΦ, Ho, ⟨%d0, H0⟩, ⟨%d1, H1⟩, ⟨%d2, H2⟩, ⟨%d3, H3⟩⟩
    ihave HΦ' := hPhi $$ HΦ
    icases HΦ' with ⟨⟨%ds, HS0⟩, Hg⟩
    iapply ((kernelRun_A c (grid0.coords t) (ms0 t) (hs0 t) (ms1 t) (hs1 t) (ms2 t) (hs2 t) (ms3 t) (hs3 t) scM (Memref.isWhole_whole _) hc0 hc1 _ _ _ ds).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro
        rw [View.read_writes_eq_canon _ _ _ (scover_A c _ _ _ _ _ _ _ _ _ _ _ hc0 hc1 _ _ _ _), canon_A]
        exact step_fill m c t _ _ _ _
      iexact Hg
    isplitl [Ho]; · iexact Ho
    isplitl [H0]; · iexists d0; iexact H0
    isplitl [H1]; · iexists d1; iexact H1
    isplitl [H2]; · iexists d2; iexact H2
    iexists d3; iexact H3
  · have hz : t.val ≠ 0 := fun h => h0 (by rw [h])
    have hc0 : ¬condReset (grid0.coords t) := fun h => h0 ((hcondReset t).mp h)
    rw [accAt_acc m c t h0]
    rw [PhiS_castSucc m c t, PhiS_pos m c _ _ hz]
    by_cases h1 : t.val % 4 = 3
    · have hc1 : condLast (grid0.coords t) := (hcondLast t).mpr h1
      rw [leaves_3_last m c t hc1, accAt_acc m c t h0]
      iintro ⟨⟨HS0, Hg⟩, Ho, ⟨%d0, H0⟩, ⟨%d1, H1⟩, ⟨%d2, H2⟩, ⟨%d3, H3⟩⟩
      iapply ((kernelRun_C c (grid0.coords t) (ms0 t) (hs0 t) (ms1 t) (hs1 t) (ms2 t) (hs2 t) (ms3 t) (hs3 t) scM (Memref.isWhole_whole _) hc0 hc1 _ _ _ _).2.2 _ Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro
          rw [View.read_writes_eq_canon _ _ _ (scover_C c _ _ _ _ _ _ _ _ _ _ _ hc0 hc1 _ _ _ _), canon_CS]
          exact step_fill m c t _ _ _ _
        iexact Hg
      isplitl [Ho]; · iexact Ho
      isplitl [H0]; · iexists d0; iexact H0
      isplitl [H1]; · iexists d1; iexact H1
      isplitl [H2]; · iexists d2; iexact H2
      unfold owns; iexists _; isplitr
      swap; · iexact H3
      ipureintro
      rw [View.read_writes_eq_canon _ _ _ (cover_C c _ _ _ _ _ _ _ _ _ _ _ hc0 hc1 _ _ _ _), canon_CO]
      exact step_fill m c t _ _ _ _
    · have hc1 : ¬condLast (grid0.coords t) := fun h => h1 ((hcondLast t).mp h)
      rw [Dat.leaves_idle (dats m 0 c) 3 t (idle_3 t hc1) (noFlush_3 t hc1)]
      iintro ⟨⟨HS0, Hg⟩, Ho, ⟨%d0, H0⟩, ⟨%d1, H1⟩, ⟨%d2, H2⟩, ⟨%d3, H3⟩⟩
      iapply ((kernelRun_B c (grid0.coords t) (ms0 t) (hs0 t) (ms1 t) (hs1 t) (ms2 t) (hs2 t) (ms3 t) (hs3 t) scM (Memref.isWhole_whole _) hc0 hc1 _ _ _ _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro
          rw [View.read_writes_eq_canon _ _ _ (scover_B c _ _ _ _ _ _ _ _ _ _ _ hc0 hc1 _ _ _ _), canon_B]
          exact step_fill m c t _ _ _ _
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS0, Hg⟩
  isplitl [HS0]
  · iexists _; iexact HS0
  iexact Hg

/-! ## The run and the frame -/

set_option backward.isDefEq.respectTransparency.types false in
/-- Every weakly fair execution of the program terminates, and every final state has the pipeline's arrays at what the
    proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RefOps.lean ====
/-
  The reference program's @main as one straight line of its 73 host operations: the three outlined functions
  (log_sigmoid twice, each through softplus; where once) listed at their call sites over that call's buffers,
  in program order. A call is the callee's body applied, so @main is this line once sequencing is reassociated.
  Then the run: every weakly fair execution terminates with every buffer at the fold of the operations' results
  over the launch contents.
-/
import proofs.«107965_j30399778521687_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 73 operations in order, the calls unfolded: the label conversion; log_sigmoid of the logits (a negation,
    softplus's fourteen, a negation); the product with the label; one minus the label; log_sigmoid of the negated logits
    (sixteen again); the second product, the sum, its negation and the sum over the classes; the transpose, the maximum
    over the features, the logistic written out, the margin subtracted and clamped at zero; the comparison of the label
    word with zero and where's three; the second sum over the classes, its product with one, and the final sum. -/
abbrev ops : List (HloOp τ sig (Elt F)) :=
  [ unary main_arg2 main_v0 (sitofp .f32 : (⟨S256x500, .i32⟩ : BufTy).Contents (Elt F) → (⟨S256x500, .f32⟩ : BufTy).Contents (Elt F)),
    TRef.unary (.of main_arg0 : TRef sig ⟨S256x500, .f32⟩) main_call0.v0 Host.negf,
    TRef.nullary main_call0.call0.cst (constant S_ .f32 0x00000000#32),
    TRef.unary main_call0.call0.cst main_call0.call0.v0 (broadcastInDim S256x500 ![] bcast_S_S256x500),
    TRef.binary main_call0.v0 main_call0.call0.v0 main_call0.call0.v1 maximumf,
    TRef.unary main_call0.call0.cst main_call0.call0.v2 (broadcastInDim S256x500 ![] bcast_S_S256x500),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S256x500 ![] bcast_S_S256x500),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v0 main_v1 main_v2 (mulf : (⟨S256x500, .f32⟩ : BufTy).Contents (Elt F) → (⟨S256x500, .f32⟩ : BufTy).Contents (Elt F) → (⟨S256x500, .f32⟩ : BufTy).Contents (Elt F)),
    nullary main_cst (constant S_ .f32 0x3F800000#32),
    unary main_cst main_v3 (broadcastInDim S256x500 ![] bcast_S_S256x500 : (⟨S_, .f32⟩ : BufTy).Contents (Elt F) → (⟨S256x500, .f32⟩ : BufTy).Contents (Elt F)),
    binary main_v3 main_v0 main_v4 (subf : (⟨S256x500, .f32⟩ : BufTy).Contents (Elt F) → (⟨S256x500, .f32⟩ : BufTy).Contents (Elt F) → (⟨S256x500, .f32⟩ : BufTy).Contents (Elt F)),
    unary main_arg0 main_v5 (Host.negf : (⟨S256x500, .f32⟩ : BufTy).Contents (Elt F) → (⟨S256x500, .f32⟩ : BufTy).Contents (Elt F)),
    TRef.unary (.of main_v5 : TRef sig ⟨S256x500, .f32⟩) main_call1.v0 Host.negf,
    TRef.nullary main_call1.call0.cst (constant S_ .f32 0x00000000#32),
    TRef.unary main_call1.call0.cst main_call1.call0.v0 (broadcastInDim S256x500 ![] bcast_S_S256x500),
    TRef.binary main_call1.v0 main_call1.call0.v0 main_call1.call0.v1 maximumf,
    TRef.unary main_call1.call0.cst main_call1.call0.v2 (broadcastInDim S256x500 ![] bcast_S_S256x500),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S256x500 ![] bcast_S_S256x500),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v4 main_v6 main_v7 (mulf : (⟨S256x500, .f32⟩ : BufTy).Contents (Elt F) → (⟨S256x500, .f32⟩ : BufTy).Contents (Elt F) → (⟨S256x500, .f32⟩ : BufTy).Contents (Elt F)),
    binary main_v2 main_v7 main_v8 (addf : (⟨S256x500, .f32⟩ : BufTy).Contents (Elt F) → (⟨S256x500, .f32⟩ : BufTy).Contents (Elt F) → (⟨S256x500, .f32⟩ : BufTy).Contents (Elt F)),
    unary main_v8 main_v9 (Host.negf : (⟨S256x500, .f32⟩ : BufTy).Contents (Elt F) → (⟨S256x500, .f32⟩ : BufTy).Contents (Elt F)),
    nullary main_cst_0 (constant S_ .f32 0x00000000#32),
    binary main_v9 main_cst_0 main_v10 ((fun x v => Host.reduceAdd x v reducesTo_S256x500_S256_d1 h_S_) : (⟨S256x500, .f32⟩ : BufTy).Contents (Elt F) → (⟨S_, .f32⟩ : BufTy).Contents (Elt F) → (⟨S256, .f32⟩ : BufTy).Contents (Elt F)),
    unary main_arg1 main_v11 ((transpose S256x500x256 [1, 0, 2] · transposes_S500x256x256_S256x500x256_1_0_2) : (⟨S500x256x256, .f32⟩ : BufTy).Contents (Elt F) → (⟨S256x500x256, .f32⟩ : BufTy).Contents (Elt F)),
    nullary main_cst_1 (constant S_ .f32 0xFF800000#32),
    binary main_v11 main_cst_1 main_v12 ((fun x v => Host.reduce FloatOps.maximumf x v reducesTo_S256x500x256_S256x500_d2 h_S_) : (⟨S256x500x256, .f32⟩ : BufTy).Contents (Elt F) → (⟨S_, .f32⟩ : BufTy).Contents (Elt F) → (⟨S256x500, .f32⟩ : BufTy).Contents (Elt F)),
    unary main_v12 main_v13 (Host.negf : (⟨S256x500, .f32⟩ : BufTy).Contents (Elt F) → (⟨S256x500, .f32⟩ : BufTy).Contents (Elt F)),
    unary main_v13 main_v14 (Host.exp : (⟨S256x500, .f32⟩ : BufTy).Contents (Elt F) → (⟨S256x500, .f32⟩ : BufTy).Contents (Elt F)),
    nullary main_cst_2 (constant S_ .f32 0x3F800000#32),
    unary main_cst_2 main_v15 (broadcastInDim S256x500 ![] bcast_S_S256x500 : (⟨S_, .f32⟩ : BufTy).Contents (Elt F) → (⟨S256x500, .f32⟩ : BufTy).Contents (Elt F)),
    binary main_v15 main_v14 main_v16 (addf : (⟨S256x500, .f32⟩ : BufTy).Contents (Elt F) → (⟨S256x500, .f32⟩ : BufTy).Contents (Elt F) → (⟨S256x500, .f32⟩ : BufTy).Contents (Elt F)),
    nullary main_cst_3 (constant S_ .f32 0x3F800000#32),
    unary main_cst_3 main_v17 (broadcastInDim S256x500 ![] bcast_S_S256x500 : (⟨S_, .f32⟩ : BufTy).Contents (Elt F) → (⟨S256x500, .f32⟩ : BufTy).Contents (Elt F)),
    binary main_v17 main_v16 main_v18 (Host.divf : (⟨S256x500, .f32⟩ : BufTy).Contents (Elt F) → (⟨S256x500, .f32⟩ : BufTy).Contents (Elt F) → (⟨S256x500, .f32⟩ : BufTy).Contents (Elt F)),
    nullary main_cst_4 (constant S_ .f32 0x3E99999A#32),
    unary main_cst_4 main_v19 (broadcastInDim S256x500 ![] bcast_S_S256x500 : (⟨S_, .f32⟩ : BufTy).Contents (Elt F) → (⟨S256x500, .f32⟩ : BufTy).Contents (Elt F)),
    binary main_v18 main_v19 main_v20 (subf : (⟨S256x500, .f32⟩ : BufTy).Contents (Elt F) → (⟨S256x500, .f32⟩ : BufTy).Contents (Elt F) → (⟨S256x500, .f32⟩ : BufTy).Contents (Elt F)),
    nullary main_cst_5 (constant S_ .f32 0x00000000#32),
    unary main_cst_5 main_v21 (broadcastInDim S256x500 ![] bcast_S_S256x500 : (⟨S_, .f32⟩ : BufTy).Contents (Elt F) → (⟨S256x500, .f32⟩ : BufTy).Contents (Elt F)),
    binary main_v20 main_v21 main_v22 (maximumf : (⟨S256x500, .f32⟩ : BufTy).Contents (Elt F) → (⟨S256x500, .f32⟩ : BufTy).Contents (Elt F) → (⟨S256x500, .f32⟩ : BufTy).Contents (Elt F)),
    nullary main_c (constantI S_ 32 0#32),
    unary main_c main_v23 (broadcastInDim S256x500 ![] bcast_S_S256x500 : (⟨S_, .i32⟩ : BufTy).Contents (Elt F) → (⟨S256x500, .i32⟩ : BufTy).Contents (Elt F)),
    binary main_arg2 main_v23 main_v24 (cmpi .eq : (⟨S256x500, .i32⟩ : BufTy).Contents (Elt F) → (⟨S256x500, .i32⟩ : BufTy).Contents (Elt F) → (⟨S256x500, .i1⟩ : BufTy).Contents (Elt F)),
    nullary main_cst_6 (constant S_ .f32 0x00000000#32),
    TRef.unary (.of main_cst_6 : TRef sig ⟨S_, .f32⟩) main_call2.v0 id,
    TRef.unary main_call2.v0 main_call2.v1 (broadcastInDim S256x500 ![] bcast_S_S256x500),
    TRef.ternary (.of main_v24 : TRef sig ⟨S256x500, .i1⟩) (.of main_v22 : TRef sig ⟨S256x500, .f32⟩) main_call2.v1 main_call2.v2 select,
    nullary main_cst_7 (constant S_ .f32 0x00000000#32),
    binary main_v25 main_cst_7 main_v26 ((fun x v => Host.reduceAdd x v reducesTo_S256x500_S256_d1 h_S_) : (⟨S256x500, .f32⟩ : BufTy).Contents (Elt F) → (⟨S_, .f32⟩ : BufTy).Contents (Elt F) → (⟨S256, .f32⟩ : BufTy).Contents (Elt F)),
    nullary main_cst_8 (constant S_ .f32 0x3F800000#32),
    unary main_cst_8 main_v27 (broadcastInDim S256 ![] bcast_S_S256 : (⟨S_, .f32⟩ : BufTy).Contents (Elt F) → (⟨S256, .f32⟩ : BufTy).Contents (Elt F)),
    binary main_v27 main_v26 main_v28 (mulf : (⟨S256, .f32⟩ : BufTy).Contents (Elt F) → (⟨S256, .f32⟩ : BufTy).Contents (Elt F) → (⟨S256, .f32⟩ : BufTy).Contents (Elt F)),
    binary main_v10 main_v28 main_v29 (addf : (⟨S256, .f32⟩ : BufTy).Contents (Elt F) → (⟨S256, .f32⟩ : BufTy).Contents (Elt F) → (⟨S256, .f32⟩ : BufTy).Contents (Elt F)) ]

-- seventy-three binds re-associated: the rewrite under the chain recurses once per statement
set_option maxRecDepth 4096 in
set_option maxHeartbeats 1600000 in
/-- @main is that straight line: the functions' definitions unfolded at their calls, both sides are one chain of
    steps once sequencing is reassociated. -/
theorem main_eq (c : Dev nD) : main (F := F) c = seq ops := by
  simp only [main, fn_log_sigmoid.body, fn_log_sigmoid_0.body, fn_softplus.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., binary_bufs_sub .., binary_bufs_sub .., unary_bufs_sub .., nullary_bufs_sub ..,
    binary_bufs_sub .., unary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    binary_bufs_sub ..⟩

/-- On every device, from any memory with zero counters: every weakly fair execution of @main terminates, and every
    final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.RefFn.lean ====
/-
  What the reference computes, as one function of the three argument arrays, in named pieces: softplus and
  log-sigmoid of an array as the outlined functions write them, the cross-entropy array, the row maxima of the
  transposed features, the rejection array, and the two sums over the classes combined. Each piece is the
  composition of the program's own operations, in its order, so that the run's fold is this function by unfolding.
-/
import proofs.«107965_j30399778521687_2_alg».proof.Proof.Gen.ReferenceIdeal

noncomputable section

namespace Cert.ReferenceIdeal.RefFn

open Cert.ReferenceIdeal Cert.ReferenceIdeal.Gen Idealize.ShloMosaic

variable {F : FTy → Type} [FloatOps F]

/-- The splat of the word `b` over the [256, 500] arrays. -/
def splat (b : BitVec 32) : FVec F S256x500 .f32 :=
  broadcastInDim S256x500 ![] bcast_S_S256x500 (constant S_ .f32 b)

/-- softplus of an array, as the outlined function writes it: where u - 0 differs from itself, u + 0; elsewhere
    max u 0 + log1p (exp (-|u - 0|)). -/
def sp (u : FVec F S256x500 .f32) : FVec F S256x500 .f32 :=
  select (cmpf .une (subf u (splat 0x00000000#32)) (subf u (splat 0x00000000#32))) (addf u (splat 0x00000000#32))
    (addf (maximumf u (splat 0x00000000#32))
      (Host.log1p (Host.exp (Host.negf (Host.absf (subf u (splat 0x00000000#32)))))))

/-- log-sigmoid of an array: minus softplus of the negated array. -/
def ls (x : FVec F S256x500 .f32) : FVec F S256x500 .f32 := Host.negf (sp (Host.negf x))

/-- The cross-entropy array: -(y · log-sigmoid x + (1 - y) · log-sigmoid (-x)), y the labels as numbers. -/
def bceArr (x : FVec F S256x500 .f32) (l : IVec S256x500 32) : FVec F S256x500 .f32 :=
  Host.negf (addf (mulf (sitofp .f32 l) (ls x)) (mulf (subf (splat 0x3F800000#32) (sitofp .f32 l)) (ls (Host.negf x))))

/-- The maximum over the features of the transposed array, from the word for -inf. -/
def rowMaxArr (w : FVec F S500x256x256 .f32) : FVec F S256x500 .f32 :=
  Host.reduce FloatOps.maximumf (transpose S256x500x256 [1, 0, 2] w transposes_S500x256x256_S256x500x256_1_0_2)
    (constant S_ .f32 0xFF800000#32) reducesTo_S256x500x256_S256x500_d2 h_S_

/-- The clamped margin: max (1 / (1 + exp (-m)) - margin) 0 of the row maxima. -/
def marginArr (w : FVec F S500x256x256 .f32) : FVec F S256x500 .f32 :=
  maximumf
    (subf (Host.divf (splat 0x3F800000#32) (addf (splat 0x3F800000#32) (Host.exp (Host.negf (rowMaxArr w)))))
      (splat 0x3E99999A#32))
    (splat 0x00000000#32)

/-- The rejection array: the clamped margin where the label word is zero, zero elsewhere. -/
def rejArr (w : FVec F S500x256x256 .f32) (l : IVec S256x500 32) : FVec F S256x500 .f32 :=
  select (cmpi .eq l (broadcastInDim S256x500 ![] bcast_S_S256x500 (constantI S_ 32 0#32))) (marginArr w)
    (broadcastInDim S256x500 ![] bcast_S_S256x500 (id (constant S_ .f32 0x00000000#32)))

/-- The reference's result: the sum over the classes of the cross-entropy array plus one times that of the
    rejection array, each sum from zero. -/
def out (x : FVec F S256x500 .f32) (w : FVec F S500x256x256 .f32) (l : IVec S256x500 32) : FVec F S256 .f32 :=
  addf (Host.reduceAdd (bceArr x l) (constant S_ .f32 0x00000000#32) reducesTo_S256x500_S256_d1 h_S_)
    (mulf (broadcastInDim S256 ![] bcast_S_S256 (constant S_ .f32 0x3F800000#32))
      (Host.reduceAdd (rejArr w l) (constant S_ .f32 0x00000000#32) reducesTo_S256x500_S256_d1 h_S_))

end Cert.ReferenceIdeal.RefFn

end
-- ==== Proof.RefTerm.lean ====
/-
  The run's fold read at the result buffer and at the three arguments: at the result it is the reference's
  whole-array function of the arguments' launch contents; each argument keeps its contents (no operation writes one).
-/
import proofs.«107965_j30399778521687_2_alg».proof.Proof.RefOps
import proofs.«107965_j30399778521687_2_alg».proof.Proof.RefFn

noncomputable section

namespace Cert.ReferenceIdeal.RefTerm

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefFn

variable {F : FTy → Type} [FloatOps F]

attribute [local irreducible] Host.reduce Host.reduceAdd in
set_option maxRecDepth 8192 in
set_option maxHeartbeats 1600000 in
/-- The fold at the result buffer is the reference's function of the arguments: each operation's result at the
    buffer it writes is its function of its operands' contents, at any other buffer what was there; what is left is
    the operations composed, which is that function by unfolding its pieces. The two reductions are kept folded
    meanwhile (the equation never looks inside them). -/
theorem out_eq (V : Valuation τ sig (Elt F)) :
    after ops V (main_v29 : DevRef τ sig)
      = out (V (main_arg0 : DevRef τ sig)) (V (main_arg1 : DevRef τ sig)) (V (main_arg2 : DevRef τ sig)) := by
  after_results_simp
  rfl

set_option maxRecDepth 8192 in
set_option maxHeartbeats 1600000 in
/-- No operation writes the first argument. -/
theorem arg0_eq (V : Valuation τ sig (Elt F)) :
    after ops V (main_arg0 : DevRef τ sig) = V (main_arg0 : DevRef τ sig) := by
  after_results_simp

set_option maxRecDepth 8192 in
set_option maxHeartbeats 1600000 in
/-- No operation writes the second argument. -/
theorem arg1_eq (V : Valuation τ sig (Elt F)) :
    after ops V (main_arg1 : DevRef τ sig) = V (main_arg1 : DevRef τ sig) := by
  after_results_simp

set_option maxRecDepth 8192 in
set_option maxHeartbeats 1600000 in
/-- No operation writes the third argument. -/
theorem arg2_eq (V : Valuation τ sig (Elt F)) :
    after ops V (main_arg2 : DevRef τ sig) = V (main_arg2 : DevRef τ sig) := by
  after_results_simp

end Cert.ReferenceIdeal.RefTerm

end
-- ==== Proof.RefRunFn.lean ====
/-
  The reference's run with its result named: every weakly fair execution of @main terminates with the result buffer
  at the reference's whole-array function of the three arguments' launch contents, and the arguments unchanged.
-/
import proofs.«107965_j30399778521687_2_alg».proof.Proof.RefTerm

noncomputable section

namespace Cert.ReferenceIdeal.RefRunFn

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefFn Cert.ReferenceIdeal.RefTerm

variable {F : FTy → Type} [FloatOps F]

/-- On every device, for any float values, from any memory with zero counters: every weakly fair execution of @main
    terminates with the result at the reference's function of the arguments and the arguments unchanged. -/
theorem run_fn (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (out_eq _), (h c main_arg0).trans (arg0_eq _),
      (h c main_arg1).trans (arg1_eq _), (h c main_arg2).trans (arg2_eq _)⟩)
    (run_after m ρ)

end Cert.ReferenceIdeal.RefRunFn

end
-- ==== Proof.RefValue.lean ====
/-
  The reference's whole-array function read at an index is the loss of the specification.
  Pointwise pieces first (each an identity between extended reals at one index), then the two reductions: the sums
  over the classes as Fin-indexed sums (initial value zero), the maximum over the features as a fold of max over
  Fin 256 of the transposed array's row; last the algebra  (0 + Σ a) + 1 · (0 + Σ b) = Σ (a + b),  which holds for
  all extended reals.
-/
import proofs.«107965_j30399778521687_2_alg».proof.Proof.RefFn
import proofs.«107965_j30399778521687_2_alg».proof.Proof.Spec
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.ReferenceIdeal.RefFn

/-- The word 0x3F800000 denotes one. -/
theorem ofBits_one : Ideal.ofBits .f32 0x3F800000#32 = 1 := by
  simp [Ideal.ofBits, Ideal.ieee]
  rw [← EReal.coe_mul]
  norm_num

/-- No extended real differs from itself. -/
theorem cmp_une_self (a : EReal) : Ideal.cmp .une a a = 0#1 := by
  simp [Ideal.cmp]

/-- softplus of an array at an index: the comparison is false, so the select takes its last operand. -/
theorem sp_apply (u : FVec Ideal S256x500 .f32) (i : S256x500.Idx) : sp u i = Cert.Loss.softplus (u i) := by
  show Scalar.select (Ideal.cmp .une (u i - Ideal.ofBits .f32 0x00000000#32) (u i - Ideal.ofBits .f32 0x00000000#32))
      (u i + Ideal.ofBits .f32 0x00000000#32)
      (max (u i) (Ideal.ofBits .f32 0x00000000#32)
        + Ideal.log1p (Ideal.exp (-(max (u i - Ideal.ofBits .f32 0x00000000#32) (-(u i - Ideal.ofBits .f32 0x00000000#32))))))
    = _
  rw [cmp_une_self, select_zero, Ideal.ofBits_zero_f32, sub_zero]
  rfl

theorem ls_apply (x : FVec Ideal S256x500 .f32) (i : S256x500.Idx) : ls x i = Cert.Loss.logSig (x i) := by
  show -(sp (Host.negf x) i) = _
  rw [sp_apply]
  rfl

theorem bceArr_apply (x : FVec Ideal S256x500 .f32) (l : IVec S256x500 32) (i : S256x500.Idx) :
    bceArr x l i = Cert.Loss.bce (x i) (FloatOps.sitofp (F := Ideal) .f32 (l i)) := by
  show -(FloatOps.sitofp (F := Ideal) .f32 (l i) * ls x i
        + (Ideal.ofBits .f32 0x3F800000#32 - FloatOps.sitofp (F := Ideal) .f32 (l i)) * ls (Host.negf x) i) = _
  rw [ls_apply, ls_apply, ofBits_one]
  rfl

/-! ## The maximum over the features -/

/-- The witnesses naming the inserted index of the two single-axis reductions. -/
theorem red1 : S256x500.Reduces [1] S256 := by decide
theorem red2 : S256x500x256.Reduces [2] S256x500 := by decide

/-- The row maximum at (b, c): the fold of max from the word for -inf over the 256 features of the transposed array's
    row, which is wf[c, b, ·]. -/
theorem rowMaxArr_apply (w : FVec Ideal S500x256x256 .f32) (b : Fin 256) (c : Fin 500) :
    rowMaxArr w (ix2 b c) = Cert.Loss.rowMax w c b := by
  unfold rowMaxArr
  rw [Host.reduce_eq_fold_single FloatOps.maximumf _ _ reducesTo_S256x500x256_S256x500_d2 red2 h_S_ (ix2 b c)]
  have hf : (transpose S256x500x256 [1, 0, 2] w transposes_S500x256x256_S256x500x256_1_0_2 ∘ red2.lift (ix2 b c))
      = fun k => w (ix3 c b k) := by
    funext k
    exact transpose_apply _ w _ _ _ fun a => match a with | ⟨0, _⟩ => rfl | ⟨1, _⟩ => rfl | ⟨2, _⟩ => rfl
  rw [hf]
  rfl

/-! ## The rejection term -/

/-- The select on the comparison of a word with zero is the conditional on the word being zero. -/
theorem select_cmpi_eq_zero (x : BitVec 32) (A B : EReal) :
    Scalar.select (IntOp.cmpi .eq x 0#32) A B = if x = 0#32 then A else B := by
  unfold Scalar.select IntOp.cmpi
  by_cases h : x = 0#32
  · simp [h]
  · have hb : (x == 0#32) = false := by simpa using h
    simp [h, hb]

/-- The clamped margin of ANY array r at an index: 1 / (1 + exp (-r)) is the logistic of r, the words for one and
    zero denote one and zero. Stated over a variable so that the row maxima stay folded. -/
theorem margin_gen (r : FVec Ideal S256x500 .f32) (i : S256x500.Idx) :
    maximumf
      (subf (Host.divf (splat 0x3F800000#32) (addf (splat 0x3F800000#32) (Host.exp (Host.negf r))))
        (splat 0x3E99999A#32))
      (splat 0x00000000#32) i
      = max (Ideal.logistic (r i) - Ideal.ofBits .f32 0x3E99999A#32) 0 := by
  show max (Ideal.div (Ideal.ofBits .f32 0x3F800000#32)
        (Ideal.ofBits .f32 0x3F800000#32 + Ideal.exp (-(r i))) - Ideal.ofBits .f32 0x3E99999A#32)
      (Ideal.ofBits .f32 0x00000000#32) = _
  rw [ofBits_one, Ideal.ofBits_zero_f32]
  rfl

theorem marginArr_apply (w : FVec Ideal S500x256x256 .f32) (b : Fin 256) (c : Fin 500) :
    marginArr w (ix2 b c)
      = max (Ideal.logistic (Cert.Loss.rowMax w c b) - Ideal.ofBits .f32 0x3E99999A#32) 0 := by
  unfold marginArr
  rw [margin_gen, rowMaxArr_apply]

theorem rejArr_apply (w : FVec Ideal S500x256x256 .f32) (l : IVec S256x500 32) (b : Fin 256) (c : Fin 500) :
    rejArr w l (ix2 b c) = Cert.Loss.rej (l (ix2 b c)) (Cert.Loss.rowMax w c b) := by
  show Scalar.select (IntOp.cmpi .eq (l (ix2 b c)) 0#32) (marginArr w (ix2 b c)) (Ideal.ofBits .f32 0x00000000#32) = _
  rw [select_cmpi_eq_zero, marginArr_apply, Ideal.ofBits_zero_f32]
  rfl

/-! ## The two sums and the result -/

/-- The index of the [256, 500] arrays over sample j with class c inserted. -/
theorem lift1 (j : S256.Idx) (c : Fin (S256x500.size 1)) : red1.lift j c = (ix2 (j 0) c : S256x500.Idx) := by
  funext a
  match a with
  | ⟨0, _⟩ => exact Fin.ext rfl
  | ⟨1, _⟩ => exact Fin.ext rfl

/-- The reference's function is the specification's loss: each sum over the classes is zero plus the Fin-indexed sum,
    the product with one is the identity, and the two sums combine term by term. -/
theorem out_eq_total (x : FVec Ideal S256x500 .f32) (w : FVec Ideal S500x256x256 .f32) (l : IVec S256x500 32) :
    out x w l = Cert.Loss.total x w l := by
  funext j
  show Ideal.hostReduceAdd reducesTo_S256x500_S256_d1 (bceArr x l) (Ideal.ofBits .f32 0x00000000#32) j
      + Ideal.ofBits .f32 0x3F800000#32
        * Ideal.hostReduceAdd reducesTo_S256x500_S256_d1 (rejArr w l) (Ideal.ofBits .f32 0x00000000#32) j = _
  rw [Ideal.hostReduceAdd_single _ red1, Ideal.hostReduceAdd_single _ red1, Ideal.ofBits_zero_f32, ofBits_one, zero_add,
    zero_add, one_mul, ← Finset.sum_add_distrib]
  refine Finset.sum_congr rfl fun c _ => ?_
  rw [lift1]
  exact congrArg₂ (· + ·) (bceArr_apply x l (ix2 (j 0) c)) (rejArr_apply w l (j 0) c)

end Cert.ReferenceIdeal.RefValue

end
-- ==== Proof.RefRun.lean ====
/-
  The reference's run against the specification: every weakly fair execution of @main terminates with the result
  buffer at the specification's loss of the three arguments' launch contents, and the arguments unchanged. The run
  gives the result as the program's whole-array function of the arguments; read index by index that function is the loss.
-/
import proofs.«107965_j30399778521687_2_alg».proof.Proof.RefRunFn
import proofs.«107965_j30399778521687_2_alg».proof.Proof.RefValue

noncomputable section

namespace Cert.ReferenceIdeal.RefRun

open Idealize.ShloMosaic Idealize.ShloMosaic.TcCoe Idealize.SL.Sem Cert.ReferenceIdeal Cert.ReferenceIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
          = Cert.Loss.total (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (RefValue.out_eq_total _ _ _), (h c).2⟩)
    (RefRunFn.run_fn (F := Ideal) m ρ)

end Cert.ReferenceIdeal.RefRun

end
-- ==== Proof.KValue.lean ====
/-
  The kernel's value at the extended reals: what its result buffer holds after the run, as the specification's totals.

  The region finds the logits and the labels transposed (class, sample); a row of an input block inside the array is
  the transposed array's row at class tile × 128 + row, so the step of a point's filled blocks adds, column by
  column, the class tile's masked sum of the specification's terms (step_blk). By induction on the point the scratch
  holds the running sum of its sample over the class tiles so far (accAt_apply); after the fourth tile that is the sum
  over the 500 classes (part_last: four masked blocks of 128 make 500). The two last class tiles write their sample
  tiles' totals back, covering the output array (final_out); the line after the region reshapes its one row into the
  result (tail_v3).
-/
import proofs.«107965_j30399778521687_2_alg».proof.Proof.KBody
import proofs.«107965_j30399778521687_2_alg».proof.Proof.KStep
import proofs.«107965_j30399778521687_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Cert.KernelIdeal Cert.KernelIdeal.Gen Cert.KernelIdeal.KStep Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays the region finds: the two transposes -/

theorem V_v0 (c : Dev nD) : (V m c main_v0 : S500x256.Idx → Elt Ideal .f32)
    = transpose S500x256 [1, 0] (m ((c : Thread nD τ).loc main_arg0)) transposes_S256x500_S500x256_1_0 := by
  show StableHlo.after hostOps0 (fun b => m (c, b)) (Proc.devRef .tc main_v0) = _
  after_results

theorem V_v1 (c : Dev nD) : (V m c main_v1 : S500x256.Idx → Elt Ideal .i32)
    = transpose S500x256 [1, 0] (m ((c : Thread nD τ).loc main_arg2)) transposes_S256x500_S500x256_1_0 := by
  show StableHlo.after hostOps0 (fun b => m (c, b)) (Proc.devRef .tc main_v1) = _
  after_results

/-- The transposed logits at (class, sample) are the logits at (sample, class); the labels likewise. -/
theorem V_v0_apply (c : Dev nD) (cc : Fin 500) (bb : Fin 256) :
    V m c main_v0 (ix2 cc bb) = m ((c : Thread nD τ).loc main_arg0) (ix2 bb cc) := by
  rw [V_v0]
  exact transpose_apply _ _ _ _ (ix2 bb cc) (fun b => by match b with | ⟨0, _⟩ => rfl | ⟨1, _⟩ => rfl)
theorem V_v1_apply (c : Dev nD) (cc : Fin 500) (bb : Fin 256) :
    V m c main_v1 (ix2 cc bb) = m ((c : Thread nD τ).loc main_arg2) (ix2 bb cc) := by
  rw [V_v1]
  exact transpose_apply _ _ _ _ (ix2 bb cc) (fun b => by match b with | ⟨0, _⟩ => rfl | ⟨1, _⟩ => rfl)

/-! ## The grid's coordinates and the windows' block indices, decided over the grid -/

theorem coords_fact : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

theorem idx_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = t.val / 4
    ∧ win0_2.index t (0 : Fin 3) = t.val % 4 ∧ win0_2.index t (1 : Fin 3) = t.val / 4 ∧ win0_2.index t (2 : Fin 3) = 0
    ∧ win0_3.index t (0 : Fin 2) = 0 ∧ win0_3.index t (1 : Fin 2) = t.val / 4 :=
  (by decide +kernel : ∀ t : Fin grid0.N, _)

/-! ## The input blocks read at an element -/

theorem moved_0 (t : Fin cfg0.N) (j : S128x128.Idx) (h : (grid0.coords t 1).val * 128 + (j 0).val < 500) :
    win0_0.moved (grid0.coords t) j = true := by
  have h0 : (j 0).val < 128 := (j 0).isLt
  have h1 : (j 1).val < 128 := (j 1).isLt
  refine (win0_0.moved_iff _ _).mpr (fun a => ?_)
  obtain ⟨hx0, hx1⟩ := xsize_0 t
  match a with
  | ⟨0, _⟩ => show (j 0).val < win0_0.xsize (grid0.coords t) 0; omega
  | ⟨1, _⟩ => show (j 1).val < win0_0.xsize (grid0.coords t) 1; omega
theorem moved_1 (t : Fin cfg0.N) (j : S128x128.Idx) (h : (grid0.coords t 1).val * 128 + (j 0).val < 500) :
    win0_1.moved (grid0.coords t) j = true := by
  have h0 : (j 0).val < 128 := (j 0).isLt
  have h1 : (j 1).val < 128 := (j 1).isLt
  refine (win0_1.moved_iff _ _).mpr (fun a => ?_)
  obtain ⟨hx0, hx1⟩ := xsize_1 t
  match a with
  | ⟨0, _⟩ => show (j 0).val < win0_1.xsize (grid0.coords t) 0; omega
  | ⟨1, _⟩ => show (j 1).val < win0_1.xsize (grid0.coords t) 1; omega
theorem moved_2 (t : Fin cfg0.N) (j : S128x128x256.Idx) (h : (grid0.coords t 1).val * 128 + (j 0).val < 500) :
    win0_2.moved (grid0.coords t) j = true := by
  have h0 : (j 0).val < 128 := (j 0).isLt
  have h1 : (j 1).val < 128 := (j 1).isLt
  have h2 : (j 2).val < 256 := (j 2).isLt
  refine (win0_2.moved_iff _ _).mpr (fun a => ?_)
  obtain ⟨hx0, hx1, hx2⟩ := xsize_2 t
  match a with
  | ⟨0, _⟩ => show (j 0).val < win0_2.xsize (grid0.coords t) 0; omega
  | ⟨1, _⟩ => show (j 1).val < win0_2.xsize (grid0.coords t) 1; omega
  | ⟨2, _⟩ => show (j 2).val < win0_2.xsize (grid0.coords t) 2; omega

/-- A row of the logits block inside the array is the transposed logits' row at tile × 128 + row. -/
theorem blk0_V (c : Dev nD) (t : Fin cfg0.N) (j : S128x128.Idx) (h : (grid0.coords t 1).val * 128 + (j 0).val < 500)
    (k : S500x256.Idx) (hk0 : (k 0).val = (t.val % 4) * 128 + (j 0).val) (hk1 : (k 1).val = (t.val / 4) * 128 + (j 1).val) :
    blk0 m c t j = V m c main_v0 k := by
  unfold blk0 Window.fill; rw [dif_pos (moved_0 t j h)]; unfold iblk
  show V m c main_v0 (((cfg0.win 0).blk t).view.emb _) = V m c main_v0 k
  refine congrArg _ (funext fun a => Fin.ext ?_)
  obtain ⟨e0, e1, -⟩ := idx_facts t
  match a with
  | ⟨0, _⟩ => show win0_0.index t (0 : Fin 2) * 128 + 1 * (j 0).val = (k 0).val; omega
  | ⟨1, _⟩ => show win0_0.index t (1 : Fin 2) * 128 + 1 * (j 1).val = (k 1).val; omega
theorem blk1_V (c : Dev nD) (t : Fin cfg0.N) (j : S128x128.Idx) (h : (grid0.coords t 1).val * 128 + (j 0).val < 500)
    (k : S500x256.Idx) (hk0 : (k 0).val = (t.val % 4) * 128 + (j 0).val) (hk1 : (k 1).val = (t.val / 4) * 128 + (j 1).val) :
    blk1 m c t j = V m c main_v1 k := by
  unfold blk1 Window.fill; rw [dif_pos (moved_1 t j h)]; unfold iblk
  show V m c main_v1 (((cfg0.win 1).blk t).view.emb _) = V m c main_v1 k
  refine congrArg _ (funext fun a => Fin.ext ?_)
  obtain ⟨-, -, e0, e1, -⟩ := idx_facts t
  match a with
  | ⟨0, _⟩ => show win0_1.index t (0 : Fin 2) * 128 + 1 * (j 0).val = (k 0).val; omega
  | ⟨1, _⟩ => show win0_1.index t (1 : Fin 2) * 128 + 1 * (j 1).val = (k 1).val; omega
theorem blk2_V (c : Dev nD) (t : Fin cfg0.N) (j : S128x128x256.Idx) (h : (grid0.coords t 1).val * 128 + (j 0).val < 500)
    (k : S500x256x256.Idx) (hk0 : (k 0).val = (t.val % 4) * 128 + (j 0).val) (hk1 : (k 1).val = (t.val / 4) * 128 + (j 1).val) (hk2 : (k 2).val = (j 2).val) :
    blk2 m c t j = m ((c : Thread nD τ).loc main_arg1) k := by
  unfold blk2 Window.fill; rw [dif_pos (moved_2 t j h)]; unfold iblk
  rw [← V_main_arg1 m c]
  show V m c main_arg1 (((cfg0.win 2).blk t).view.emb _) = V m c main_arg1 k
  refine congrArg _ (funext fun a => Fin.ext ?_)
  obtain ⟨-, -, -, -, e0, e1, e2, -⟩ := idx_facts t
  match a with
  | ⟨0, _⟩ => show win0_2.index t (0 : Fin 3) * 128 + 1 * (j 0).val = (k 0).val; omega
  | ⟨1, _⟩ => show win0_2.index t (1 : Fin 3) * 128 + 1 * (j 1).val = (k 1).val; omega
  | ⟨2, _⟩ => show win0_2.index t (2 : Fin 3) * 256 + 1 * (j 2).val = (k 2).val; omega

/-! ## The accumulator at the extended reals -/

/-- A sample's class-n contribution, zero for a class number past the 500 classes. -/
def g (c : Dev nD) (b n : ℕ) : EReal :=
  if h : b < 256 ∧ n < 500 then
    Cert.Loss.term (m ((c : Thread nD τ).loc main_arg0)) (m ((c : Thread nD τ).loc main_arg1)) (m ((c : Thread nD τ).loc main_arg2)) ⟨b, h.1⟩ ⟨n, h.2⟩
  else 0

/-- Class tile k's masked sum for sample b. -/
def S (c : Dev nD) (b k : ℕ) : EReal := ∑ r : Fin 128, (if k * 128 + r.val < 500 then g m c b (k * 128 + r.val) else 0)

/-- The running sum after class tile k. -/
def part (c : Dev nD) (b : ℕ) : ℕ → EReal
  | 0 => 0 + S m c b 0
  | 1 => (0 + S m c b 0) + S m c b 1
  | 2 => ((0 + S m c b 0) + S m c b 1) + S m c b 2
  | _ => (((0 + S m c b 0) + S m c b 1) + S m c b 2) + S m c b 3

/-- The step of a point's filled blocks adds the point's class tile's masked sum, column by column. -/
theorem step_blk (c : Dev nD) (t : Fin cfg0.N) (acc : Vec Ideal S1x128 .f32) (q : Fin 128) :
    step (F := Ideal) (grid0.coords t) (blk0 m c t) (blk1 m c t) (blk2 m c t) acc (ix2 (0 : Fin 1) q)
      = acc (ix2 (0 : Fin 1) q) + S m c ((t.val / 4) * 128 + q.val) (t.val % 4) := by
  have hN : t.val < 8 := lt_of_lt_of_eq t.isLt (show cfg0.N = 8 from N_0)
  obtain ⟨hc0, hc1⟩ := coords_fact t
  rw [step_apply]
  unfold S
  refine congrArg (acc (ix2 (0 : Fin 1) q) + ·) (Finset.sum_congr rfl fun r _ => ?_)
  rw [hc1]
  by_cases h : t.val % 4 * 128 + r.val < 500
  · rw [if_pos h, if_pos h]
    have hb : t.val / 4 * 128 + q.val < 256 := by have := q.isLt; omega
    unfold g; rw [dif_pos ⟨hb, h⟩]
    unfold Cert.Loss.term Cert.Loss.rowMax
    have h' : (grid0.coords t 1).val * 128 + ((ix2 r q : S128x128.Idx) 0).val < 500 := by rw [hc1]; exact h
    rw [blk0_V m c t (ix2 r q) h' (ix2 ⟨t.val % 4 * 128 + r.val, h⟩ ⟨t.val / 4 * 128 + q.val, hb⟩) rfl rfl, V_v0_apply,
      blk1_V m c t (ix2 r q) h' (ix2 ⟨t.val % 4 * 128 + r.val, h⟩ ⟨t.val / 4 * 128 + q.val, hb⟩) rfl rfl, V_v1_apply]
    have hw : (fun kk : Fin 256 => blk2 m c t (ix3 r q kk))
        = (fun kk : Fin 256 => m ((c : Thread nD τ).loc main_arg1) (ix3 (⟨t.val % 4 * 128 + r.val, h⟩ : Fin 500) (⟨t.val / 4 * 128 + q.val, hb⟩ : Fin 256) kk)) :=
      funext fun kk => by
        have h'' : (grid0.coords t 1).val * 128 + ((ix3 r q kk : S128x128x256.Idx) 0).val < 500 := by rw [hc1]; exact h
        exact blk2_V m c t (ix3 r q kk) h'' (ix3 ⟨t.val % 4 * 128 + r.val, h⟩ ⟨t.val / 4 * 128 + q.val, hb⟩ kk) rfl rfl rfl
    rw [hw]
  · rw [if_neg h, if_neg h]

/-- What the scratch holds after each point, column by column: the running sum of its sample over the class tiles so far. -/
theorem accAt_apply (c : Dev nD) : ∀ (n : ℕ) (hn : n < cfg0.N) (q : Fin 128),
    accAt m c n hn (ix2 (0 : Fin 1) q) = part m c ((n / 4) * 128 + q.val) (n % 4)
  | n, hn, q => by
    by_cases h0 : n % 4 = 0
    · rw [accAt_reset m c ⟨n, hn⟩ h0, step_blk, reset_apply]
      show (0 : EReal) + S m c (n / 4 * 128 + q.val) (n % 4) = _
      rw [h0]; rfl
    · have hpos : n ≠ 0 := fun h => h0 (by rw [h])
      rw [accAt_acc m c ⟨n, hn⟩ h0, step_blk]
      show accAt m c (n - 1) _ (ix2 (0 : Fin 1) q) + S m c (n / 4 * 128 + q.val) (n % 4) = _
      rw [accAt_apply c (n - 1) (by omega) q]
      have e1 : (n - 1) / 4 = n / 4 := by omega
      rw [e1]
      have hk : n % 4 = 1 ∨ n % 4 = 2 ∨ n % 4 = 3 := by omega
      rcases hk with hk | hk | hk
      · have e2 : (n - 1) % 4 = 0 := by omega
        rw [e2, hk]; rfl
      · have e2 : (n - 1) % 4 = 1 := by omega
        rw [e2, hk]; rfl
      · have e2 : (n - 1) % 4 = 2 := by omega
        rw [e2, hk]; rfl
  termination_by n => n
  decreasing_by omega

/-! ## The output array after the run -/

/-- The output array as the specification's totals: row 0, column b the loss of sample b. -/
def Gout (c : Dev nD) : S1x256.Idx → Elt Ideal .f32 := fun i =>
  Cert.Loss.total (m ((c : Thread nD τ).loc main_arg0)) (m ((c : Thread nD τ).loc main_arg1)) (m ((c : Thread nD τ).loc main_arg2))
    (ix1 (⟨(i 1).val, (i 1).isLt⟩ : Fin 256))

theorem xsize_3 : ∀ t : Fin cfg0.N, win0_3.xsize (grid0.coords t) 0 = 1 ∧ win0_3.xsize (grid0.coords t) 1 = 128 :=
  (by decide +kernel : ∀ t : Fin grid0.N, win0_3.xsize (grid0.coords t) 0 = 1 ∧ win0_3.xsize (grid0.coords t) 1 = 128)

/-- After the last class tile the running sum is the sum over the 500 classes. -/
theorem part_last (c : Dev nD) (b : ℕ) (hb : b < 256) :
    part m c b 3 = Cert.Loss.total (m ((c : Thread nD τ).loc main_arg0)) (m ((c : Thread nD τ).loc main_arg1)) (m ((c : Thread nD τ).loc main_arg2)) (ix1 (⟨b, hb⟩ : Fin 256)) := by
  show (((0 + S m c b 0) + S m c b 1) + S m c b 2) + S m c b 3 = _
  unfold S
  rw [sum_blocks (g m c b)]
  unfold Cert.Loss.total
  refine Finset.sum_congr rfl fun cc _ => ?_
  unfold g; rw [dif_pos ⟨hb, cc.isLt⟩]

/-- WHAT A LAST CLASS TILE WRITES BACK is its block of the totals. -/
theorem flushed_eq (c : Dev nD) (t : Fin cfg0.N) (hf : (cfg0.win 3).flush t = true) :
    (dats m 0 c).flushed 3 t = ((cfg0.win 3).blk t).view.read (Elt Ideal) (Gout m c) := by
  have h3 : t.val % 4 = 3 := (flush0_3 t).mp hf
  have hN : t.val < 8 := lt_of_lt_of_eq t.isLt (show cfg0.N = 8 from N_0)
  show (cfg0.win 3).cut (grid0.coords t) ((dats m 0 c).after 3 t) = _
  rw [after_3]
  funext y
  obtain ⟨hx0, hx1⟩ := xsize_3 t
  have hy0 : (y 0).val < 1 := lt_of_lt_of_eq (y 0).isLt hx0
  have hy1 : (y 1).val < 128 := lt_of_lt_of_eq (y 1).isLt hx1
  have e : (cfg0.win 3).xinj (grid0.coords t) y = (ix2 (0 : Fin 1) (⟨(y 1).val, hy1⟩ : Fin 128) : S1x128.Idx) :=
    funext fun a => Fin.ext (by
      match a with
      | ⟨0, _⟩ => show (y 0).val = 0; omega
      | ⟨1, _⟩ => rfl)
  show accAt m c t.val t.isLt ((cfg0.win 3).xinj (grid0.coords t) y) = _
  rw [e, accAt_apply, h3]
  have hb : t.val / 4 * 128 + (y 1).val < 256 := by omega
  rw [part_last m c _ hb, View.read_apply]
  unfold Gout
  refine congrArg _ (congrArg ix1 (Fin.ext ?_))
  obtain ⟨-, -, -, -, -, -, -, e0, e1⟩ := idx_facts t
  show t.val / 4 * 128 + (y 1).val = win0_3.index t (1 : Fin 2) * 128 + 1 * (y 1).val
  omega

theorem mem_blk3 (t : Fin cfg0.N) (i : S1x256.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v2).slice (win0_3.rect t)).set ↔ _
  rw [View.set_slice_whole, Rect.mem_set_unit]
  exact Iff.rfl

/-- Every element of the output array is in the block some last class tile writes back. -/
theorem covered (i : S1x256.Idx) : ∃ t : Fin cfg0.N, (cfg0.win 3).flush t = true ∧ i ∈ ((cfg0.win 3).blk t).view.set := by
  have hi0 : (i 0).val < 1 := (i 0).isLt
  have hi1 : (i 1).val < 256 := (i 1).isLt
  have hN : cfg0.N = 8 := N_0
  refine ⟨⟨4 * ((i 1).val / 128) + 3, by omega⟩, (flush0_3 _).mpr (by show (4 * ((i 1).val / 128) + 3) % 4 = 3; omega), ?_⟩
  rw [mem_blk3]
  obtain ⟨-, -, -, -, -, -, -, e0, e1⟩ := idx_facts ⟨4 * ((i 1).val / 128) + 3, by omega⟩
  intro a
  match a with
  | ⟨0, _⟩ => show win0_3.index _ (0 : Fin 2) * 1 ≤ (i 0).val ∧ (i 0).val < win0_3.index _ (0 : Fin 2) * 1 + 1; rw [e0]; omega
  | ⟨1, _⟩ =>
    show win0_3.index _ (1 : Fin 2) * 128 ≤ (i 1).val ∧ (i 1).val < win0_3.index _ (1 : Fin 2) * 128 + 128
    rw [e1]; show (4 * ((i 1).val / 128) + 3) / 4 * 128 ≤ (i 1).val ∧ (i 1).val < (4 * ((i 1).val / 128) + 3) / 4 * 128 + 128; omega

/-- THE OUTPUT ARRAY after the run holds the totals. -/
theorem final_out (c : Dev nD) : (dats m 0 c).arrAt 3 cfg0.N = Gout m c :=
  (dats m 0 c).arrAt_eq_of_cover 3 (Gout m c) (fun t hf => flushed_eq m c t hf) covered

/-! ## The result buffer after the line that follows the region, and the run read -/

/-- The result is the output array's one row: the totals. -/
theorem tail_v3 (c : Dev nD) :
    Pipeline.afterTail₀ cfgs (dats m) 0 (V0 m) [hostOps1] c main_v3
      = Cert.Loss.total (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  funext i
  have hw : Pipeline.withArrays (cfgs 0).spec c (V0 m c) (fun w => (dats m 0 c).arrAt w (cfgs 0).N) (Proc.devRef .tc main_v2) = Gout m c :=
    (Pipeline.withArrays_arr spec0 launch0.win.arr_inj c (V0 m c) _ 3).trans (final_out m c)
  show shapeCast S256 (Pipeline.withArrays (cfgs 0).spec c (V0 m c) (fun w => (dats m 0 c).arrAt w (cfgs 0).N) (Proc.devRef .tc main_v2)) shapeCasts_S1x256_S256 i = _
  rw [hw]
  have hi : (i 0).val < 256 := (i 0).isLt
  refine (shapeCast_apply _ _ i (ix2 (0 : Fin 1) (⟨(i 0).val, hi⟩ : Fin 256)) ?_).trans ?_
  · rw [Shape.rowMajor_val_two]
    have e1 : ((Proc.devRef .tc main_v3 : DevRef τ sig).ty.shape.rowMajor i).val = (i 0).val := Shape.rowMajor_val_one (d := ![256]) i
    rw [e1]; show 0 * 256 + (i 0).val = (i 0).val; omega
  · unfold Gout Cert.Loss.total; rfl

/-- The kernel's program runs; its result ends at the specification's totals and its arguments as launched. -/
theorem run : θ_run defs (onTc (τ := τ) (main (F := Ideal))) ⟨m, fun _ => 0, ρ⟩ (fun r => ∀ c : Dev nD,
      r.2.mem ((c.tc : Thread nD τ).loc main_v3)
          = Cert.Loss.total (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_v3 m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c))⟩)
    (run_main m ρ)

end Cert.KernelIdeal.KValue

end
-- ==== Proof.lean ====
/-
  The certificate of a binary cross-entropy loss with a rejection margin, summed per sample over 500 classes:
  a tiled kernel (sample tiles of 128, class tiles of 128, the last class tile masked past class 499, a scratch
  accumulator reset at a sample tile's first class tile and written out at its last) against the reference that sums
  the two terms over the classes separately.

  The three frames: the kernel's program at the word level and at the extended reals run, fault nowhere and leave
  their arguments as launched (the body run once per way its two branches go; the proof data names what the scratch
  holds after each grid point); the reference's run with the result dropped. The ideal pass rewrote nothing. At the
  extended reals both programs end with the same totals: per sample the sum over the classes of the cross-entropy term
  plus the masked margin — the kernel's four masked blocks of 128 make the 500 classes, and the reference's two sums
  add to the sum of the sums' terms, addition on the extended reals being commutative and associative.
-/
import proofs.«107965_j30399778521687_2_alg».proof.Defs
import proofs.«107965_j30399778521687_2_alg».proof.Proof.Gen.Kernel
import proofs.«107965_j30399778521687_2_alg».proof.Proof.Gen.KernelIdeal
import proofs.«107965_j30399778521687_2_alg».proof.Proof.Gen.ReferenceIdeal
import proofs.«107965_j30399778521687_2_alg».proof.Proof.Gen.Pre_finite_inputs
import proofs.«107965_j30399778521687_2_alg».proof.Proof.BBody
import proofs.«107965_j30399778521687_2_alg».proof.Proof.KBody
import proofs.«107965_j30399778521687_2_alg».proof.Proof.RefRun
import proofs.«107965_j30399778521687_2_alg».proof.Proof.KValue
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Body.frame m ρ

/-- The program read at the extended reals runs and keeps its arguments. -/
theorem frame_ki : Cert.frame_KernelIdeal := fun m ρ _ => Cert.KernelIdeal.Body.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

/-- Both programs end with the specification's totals of arguments that agree: per sample, the sum over the 500
    classes of the cross-entropy term plus the masked rejection margin. The kernel adds the two terms class by class
    and sums four masked blocks of 128 classes; the reference sums each term over the classes and adds the sums; over
    the extended reals, whose addition is commutative and associative, these are one sum. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
